-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x1024 : Shape := ⟨2, ![2048, 1024]⟩
abbrev S1024 : Shape := ⟨1, ![1024]⟩
abbrev S6x1024 : Shape := ⟨2, ![6, 1024]⟩
abbrev S5x1024x1024 : Shape := ⟨3, ![5, 1024, 1024]⟩
abbrev S1024x2048 : Shape := ⟨2, ![1024, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S6x1024 : S_.BroadcastsInDim S6x1024 (![] : Fin 0 → Fin S6x1024.rank)
  reducesTo_S6x1024_S_d0_1 : S6x1024.ReducesTo [0, 1] S_
  bcast_S_S5x1024x1024 : S_.BroadcastsInDim S5x1024x1024 (![] : Fin 0 → Fin S5x1024x1024.rank)
  reducesTo_S5x1024x1024_S_d0_1_2 : S5x1024x1024.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S5x1024x1024 .f32) (main_arg5 : FVec F S1024x2048 .f32) (main_arg6 : FVec F S2048 .f32) (main_v13 : IVec S_ 1) (main_v16 : IVec S6x1024 1) : IVec S_ 1 :=
  let main_c_5 : IVec S_ 1 := constantI S_ 1 1#1
  let main_v17 : IVec S_ 1 := (fun x v => Host.reduce IntOp.andi x v reducesTo_S6x1024_S_d0_1 h_S_) main_v16 main_c_5
  let main_v18 : IVec S_ 1 := andi main_v13 main_v17
  let main_v19 : FVec F S5x1024x1024 .f32 := Host.absf main_arg4
  let main_cst_6 : FVec F S_ .f32 := constant S_ .f32 0x7F800000#32
  let main_v20 : FVec F S5x1024x1024 .f32 := broadcastInDim S5x1024x1024 ![] bcast_S_S5x1024x1024 main_cst_6
  let main_v21 : IVec S5x1024x1024 1 := cmpf .olt main_v19 main_v20
  let main_c_7 : IVec S_ 1 := constantI S_ 1 1#1
  let main_v22 : IVec S_ 1 := (fun x v => Host.reduce IntOp.andi x v reducesTo_S5x1024x1024_S_d0_1_2 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4x4096x2048 .f32) (main_arg1 : FVec F S2048x1024 .f32) (main_arg2 : FVec F S1024 .f32) (main_arg3 : FVec F S6x1024 .f32) (main_arg4 : FVec F S5x1024x1024 .f32) (main_arg5 : FVec F S1024x2048 .f32) (main_arg6 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S6x1024 .f32 := Host.absf main_arg3
  let main_cst_4 : FVec F S_ .f32 := constant S_ .f32 0x7F800000#32
  let main_v15 : FVec F S6x1024 .f32 := broadcastInDim S6x1024 ![] bcast_S_S6x1024 main_cst_4
  let main_v16 : IVec S6x1024 1 := cmpf .olt main_v14 main_v15
  fn_part1 (F := F) main_arg4 main_arg5 main_arg6 main_v13 main_v16
-- ==== Kernel.lean ====
abbrev S4x4096x2048 : Shape := ⟨3, ![4, 4096, 2048]⟩
abbrev S2048x1024 : Shape := ⟨2, ![2048, 1024]⟩
abbrev S1024 : Shape := ⟨1, ![1024]⟩
abbrev S6x1024 : Shape := ⟨2, ![6, 1024]⟩
abbrev S5x1024x1024 : Shape := ⟨3, ![5, 1024, 1024]⟩
abbrev S1024x2048 : Shape := ⟨2, ![1024, 2048]⟩
abbrev S2048 : Shape := ⟨1, ![2048]⟩
abbrev S16384x2048 : Shape := ⟨2, ![16384, 2048]⟩
abbrev S5120x1024 : Shape := ⟨2, ![5120, 1024]⟩
abbrev S128x2048 : Shape := ⟨2, ![128, 2048]⟩
abbrev S128x5120 : Shape := ⟨2, ![128, 5120]⟩
abbrev S128x1024 : Shape := ⟨2, ![128, 1024]⟩
abbrev S1x1024 : Shape := ⟨2, ![1, 1024]⟩
abbrev S1x2048 : Shape := ⟨2, ![1, 2048]⟩

abbrev nBuf : Space → Nat
  | .hbm => 14
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2048x1024, .f32⟩
  | .hbm, ⟨2, _⟩ => ⟨S1024, .f32⟩
  | .hbm, ⟨3, _⟩ => ⟨S6x1024, .f32⟩
  | .hbm, ⟨4, _⟩ => ⟨S5x1024x1024, .f32⟩
  | .hbm, ⟨5, _⟩ => ⟨S1024x2048, .f32⟩
  | .hbm, ⟨6, _⟩ => ⟨S2048, .f32⟩
  | .hbm, ⟨7, _⟩ => ⟨S16384x2048, .f32⟩
  | .hbm, ⟨8, _⟩ => ⟨S2048x1024, .bf16⟩
  | .hbm, ⟨9, _⟩ => ⟨S5x1024x1024, .bf16⟩
  | .hbm, ⟨10, _⟩ => ⟨S5120x1024, .bf16⟩
  | .hbm, ⟨11, _⟩ => ⟨S1024x2048, .bf16⟩
  | .hbm, ⟨12, _⟩ => ⟨S16384x2048, .f32⟩
  | .hbm, ⟨13, _⟩ => ⟨S4x4096x2048, .f32⟩
  | .local _ .vmem, ⟨0, _⟩ => ⟨S128x2048, .f32⟩
  | .local _ .vmem, ⟨1, _⟩ => ⟨S128x2048, .f32⟩
  | .local _ .vmem, ⟨2, _⟩ => ⟨S2048x1024, .bf16⟩
  | .local _ .vmem, ⟨3, _⟩ => ⟨S1024, .f32⟩
  | .local _ .vmem, ⟨4, _⟩ => ⟨S6x1024, .f32⟩
  | .local _ .vmem, ⟨5, _⟩ => ⟨S5120x1024, .bf16⟩
  | .local _ .vmem, ⟨6, _⟩ => ⟨S1024x2048, .bf16⟩
  | .local _ .vmem, ⟨7, _⟩ => ⟨S2048, .f32⟩
  | .local _ .vmem, ⟨8, _⟩ => ⟨S128x2048, .f32⟩
  | .local _ .vmem, ⟨9, _⟩ => ⟨S128x2048, .f32⟩
  | .local _ .vmem, ⟨10, _⟩ => ⟨S128x5120, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5120x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x4096x2048_S16384x2048 : S4x4096x2048.ShapeCasts S16384x2048
  bitsLt_bf16_f32 : FTy.bits .bf16 < FTy.bits .f32
  shapeCasts_S5x1024x1024_S5120x1024 : S5x1024x1024.ShapeCasts S5120x1024
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  inb_S6x1024_S6x1024_0_0 : ∀ a, (![0, 0] : Fin 2 → Nat) a + S6x1024.size a ≤ S6x1024.size a
  h_S6x1024 : 0 < S6x1024.numel
  slices_S6x1024_o0_0_S1x1024 : S6x1024.Slices ![0, 0] S1x1024
  shapeCasts_S1x1024_S1024 : S1x1024.ShapeCasts S1024
  slices_S6x1024_o1_0_S1x1024 : S6x1024.Slices ![1, 0] S1x1024
  slices_S6x1024_o2_0_S1x1024 : S6x1024.Slices ![2, 0] S1x1024
  slices_S6x1024_o3_0_S1x1024 : S6x1024.Slices ![3, 0] S1x1024
  slices_S6x1024_o4_0_S1x1024 : S6x1024.Slices ![4, 0] S1x1024
  slices_S6x1024_o5_0_S1x1024 : S6x1024.Slices ![5, 0] S1x1024
  inb_S128x5120_S128x1024_0_0 : ∀ a, (![0, 0] : Fin 2 → Nat) a + S128x1024.size a ≤ S128x5120.size a
  h_S128x1024 : 0 < S128x1024.numel
  shapeCasts_S128x1024_S128x1024 : S128x1024.ShapeCasts S128x1024
  packedbf16_S128x5120_S128x1024_0_0 : (Rect.unit (s := S128x5120) ![0, 0] S128x1024.size inb_S128x5120_S128x1024_0_0).PackedRows (EltTy.packing .bf16)
  inb_S128x5120_S128x1024_0_1024 : ∀ a, (![0, 1024] : Fin 2 → Nat) a + S128x1024.size a ≤ S128x5120.size a
  packedbf16_S128x5120_S128x1024_0_1024 : (Rect.unit (s := S128x5120) ![0, 1024] S128x1024.size inb_S128x5120_S128x1024_0_1024).PackedRows (EltTy.packing .bf16)
  inb_S128x5120_S128x1024_0_2048 : ∀ a, (![0, 2048] : Fin 2 → Nat) a + S128x1024.size a ≤ S128x5120.size a
  packedbf16_S128x5120_S128x1024_0_2048 : (Rect.unit (s := S128x5120) ![0, 2048] S128x1024.size inb_S128x5120_S128x1024_0_2048).PackedRows (EltTy.packing .bf16)
  inb_S128x5120_S128x1024_0_3072 : ∀ a, (![0, 3072] : Fin 2 → Nat) a + S128x1024.size a ≤ S128x5120.size a
  packedbf16_S128x5120_S128x1024_0_3072 : (Rect.unit (s := S128x5120) ![0, 3072] S128x1024.size inb_S128x5120_S128x1024_0_3072).PackedRows (EltTy.packing .bf16)
  inb_S128x5120_S128x1024_0_4096 : ∀ a, (![0, 4096] : Fin 2 → Nat) a + S128x1024.size a ≤ S128x5120.size a
  packedbf16_S128x5120_S128x1024_0_4096 : (Rect.unit (s := S128x5120) ![0, 4096] S128x1024.size inb_S128x5120_S128x1024_0_4096).PackedRows (EltTy.packing .bf16)
  inb_S5120x1024_S5120x1024_0_0 : ∀ a, (![0, 0] : Fin 2 → Nat) a + S5120x1024.size a ≤ S5120x1024.size a
  h_S5120x1024 : 0 < S5120x1024.numel
  shapeCasts_S5120x1024_S5120x1024 : S5120x1024.ShapeCasts S5120x1024
  inb_S128x5120_S128x5120_0_0 : ∀ a, (![0, 0] : Fin 2 → Nat) a + S128x5120.size a ≤ S128x5120.size a
  h_S128x5120 : 0 < S128x5120.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S128x2048 : S1x2048.Broadcasts S128x2048
  shapeCasts_S16384x2048_S4x4096x2048 : S16384x2048.ShapeCasts S4x4096x2048
  dot_S128x2048_S2048x1024_S128x1024_1_0_0_1_n_n_wf : DotDims.WF S128x2048 S2048x1024 S128x1024 [1] [0] [0] [1] [] []
  dot_S128x5120_S5120x1024_S128x1024_1_0_0_1_n_n_wf : DotDims.WF S128x5120 S5120x1024 S128x1024 [1] [0] [0] [1] [] []
  dot_S128x1024_S1024x2048_S128x2048_1_0_0_1_n_n_wf : DotDims.WF S128x1024 S1024x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S16384x2048.size a
  hwx0_0 : ∀ i : grid0.Coords, EltTy.bits .f32 = 32 ∨ (Rect.block (s := S16384x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x1024.size a ≤ S6x1024.size a
  hwx0_3 : ∀ i : grid0.Coords, EltTy.bits .f32 = 32 ∨ (Rect.block (s := S6x1024) S6x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5120x1024.size a ≤ S5120x1024.size a
  hwx0_4 : ∀ i : grid0.Coords, EltTy.bits .bf16 = 32 ∨ (Rect.block (s := S5120x1024) S5120x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S16384x2048.size a
  hwx0_7 : ∀ i : grid0.Coords, EltTy.bits .f32 = 32 ∨ (Rect.block (s := S16384x2048) S128x2048.size (cc0_transform_7 i) (hinb0_7 i)).WholeWords (EltTy.packing .f32)

variable [Facts₀]

def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x5120_S5120x1024_S128x1024_1_0_0_1_n_n : DotDims S128x5120 S5120x1024 S128x1024 where
  lhsContracting := [1]
  rhsContracting := [0]
  lhsNonContracting := [0]
  rhsNonContracting := [1]
  lhsBatch := []
  rhsBatch := []
  wf := dot_S128x5120_S5120x1024_S128x1024_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S5120x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S128x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x1024 : Shape := ⟨2, ![2048, 1024]⟩
abbrev S1024 : Shape := ⟨1, ![1024]⟩
abbrev S6x1024 : Shape := ⟨2, ![6, 1024]⟩
abbrev S5x1024x1024 : Shape := ⟨3, ![5, 1024, 1024]⟩
abbrev S1024x2048 : Shape := ⟨2, ![1024, 2048]⟩
abbrev S2048 : Shape := ⟨1, ![2048]⟩
abbrev S4x4096x1024 : Shape := ⟨3, ![4, 4096, 1024]⟩
abbrev S1x1x1024 : Shape := ⟨3, ![1, 1, 1024]⟩
abbrev S_ : Shape := ⟨0, ![]⟩
abbrev S1x1024 : Shape := ⟨2, ![1, 1024]⟩
abbrev S1x1024x1024 : Shape := ⟨3, ![1, 1024, 1024]⟩
abbrev S1024x1024 : Shape := ⟨2, ![1024, 1024]⟩
abbrev S1x1x2048 : Shape := ⟨3, ![1, 1, 2048]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x1024, .f32⟩
  | .hbm, ⟨2, _⟩ => ⟨S1024, .f32⟩
  | .hbm, ⟨3, _⟩ => ⟨S6x1024, .f32⟩
  | .hbm, ⟨4, _⟩ => ⟨S5x1024x1024, .f32⟩
  | .hbm, ⟨5, _⟩ => ⟨S1024x2048, .f32⟩
  | .hbm, ⟨6, _⟩ => ⟨S2048, .f32⟩
  | .hbm, ⟨7, _⟩ => ⟨S4x4096x1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S1x1024, .f32⟩
  | .hbm, ⟨14, _⟩ => ⟨S1024, .f32⟩
  | .hbm, ⟨15, _⟩ => ⟨S1x1x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S1x1024x1024, .f32⟩
  | .hbm, ⟨20, _⟩ => ⟨S1024x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S1x1024x1024, .f32⟩
  | .hbm, ⟨32, _⟩ => ⟨S1024x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S1x1024, .f32⟩
  | .hbm, ⟨38, _⟩ => ⟨S1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S1x1024x1024, .f32⟩
  | .hbm, ⟨44, _⟩ => ⟨S1024x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S1x1024, .f32⟩
  | .hbm, ⟨50, _⟩ => ⟨S1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S1x1024x1024, .f32⟩
  | .hbm, ⟨56, _⟩ => ⟨S1024x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S1x1024, .f32⟩
  | .hbm, ⟨62, _⟩ => ⟨S1024, .f32⟩
  | .hbm, ⟨63, _⟩ => ⟨S1x1x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S1x1024x1024, .f32⟩
  | .hbm, ⟨68, _⟩ => ⟨S1024x1024, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S1x1024, .f32⟩
  | .hbm, ⟨74, _⟩ => ⟨S1024, .f32⟩
  | .hbm, ⟨75, _⟩ => ⟨S1x1x1024, .f32⟩
  | .hbm, ⟨76, _⟩ => ⟨S4x4096x1024, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | .hbm, ⟨80, _⟩ => ⟨S4x4096x2048, .f32⟩
  | .hbm, ⟨81, _⟩ => ⟨S1x1x2048, .f32⟩
  | .hbm, ⟨82, _⟩ => ⟨S4x4096x2048, .f32⟩
  | .hbm, ⟨83, _⟩ => ⟨S4x4096x2048, .f32⟩
  | .hbm, ⟨84, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x1024 : S_.BroadcastsInDim S4x4096x1024 (![] : Fin 0 → Fin S4x4096x1024.rank)
  slices_S6x1024_S1x1024_0_0 : S6x1024.Slices ![0, 0] S1x1024
  shapeCasts_S1x1024_S1024 : S1x1024.ShapeCasts S1024
  slices_S5x1024x1024_S1x1024x1024_0_0_0 : S5x1024x1024.Slices ![0, 0, 0] S1x1024x1024
  shapeCasts_S1x1024x1024_S1024x1024 : S1x1024x1024.ShapeCasts S1024x1024
  slices_S6x1024_S1x1024_1_0 : S6x1024.Slices ![1, 0] S1x1024
  slices_S5x1024x1024_S1x1024x1024_1_0_0 : S5x1024x1024.Slices ![1, 0, 0] S1x1024x1024
  slices_S6x1024_S1x1024_2_0 : S6x1024.Slices ![2, 0] S1x1024
  slices_S5x1024x1024_S1x1024x1024_2_0_0 : S5x1024x1024.Slices ![2, 0, 0] S1x1024x1024
  slices_S6x1024_S1x1024_3_0 : S6x1024.Slices ![3, 0] S1x1024
  slices_S5x1024x1024_S1x1024x1024_3_0_0 : S5x1024x1024.Slices ![3, 0, 0] S1x1024x1024
  slices_S6x1024_S1x1024_4_0 : S6x1024.Slices ![4, 0] S1x1024
  slices_S5x1024x1024_S1x1024x1024_4_0_0 : S5x1024x1024.Slices ![4, 0, 0] S1x1024x1024
  slices_S6x1024_S1x1024_5_0 : S6x1024.Slices ![5, 0] S1x1024
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x1024_S4x4096x1024_2_0_01_1_n_n_wf : DotDims.WF S4x4096x2048 S2048x1024 S4x4096x1024 [2] [0] [0, 1] [1] [] []
  dot_S4x4096x1024_S1024x1024_S4x4096x1024_2_0_01_1_n_n_wf : DotDims.WF S4x4096x1024 S1024x1024 S4x4096x1024 [2] [0] [0, 1] [1] [] []
  dot_S4x4096x1024_S1024x2048_S4x4096x2048_2_0_01_1_n_n_wf : DotDims.WF S4x4096x1024 S1024x2048 S4x4096x2048 [2] [0] [0, 1] [1] [] []

variable [Facts₀]

def dot_S4x4096x2048_S2048x1024_S4x4096x1024_2_0_01_1_n_n : DotDims S4x4096x2048 S2048x1024 S4x4096x1024 where
  lhsContracting := [2]
  rhsContracting := [0]
  lhsNonContracting := [0, 1]
  rhsNonContracting := [1]
  lhsBatch := []
  rhsBatch := []
  wf := dot_S4x4096x2048_S2048x1024_S4x4096x1024_2_0_01_1_n_n_wf
def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S1024x2048_S4x4096x2048_2_0_01_1_n_n : DotDims S4x4096x1024 S1024x2048 S4x4096x2048 where
  lhsContracting := [2]
  rhsContracting := [0]
  lhsNonContracting := [0, 1]
  rhsNonContracting := [1]
  lhsBatch := []
  rhsBatch := []
  wf := dot_S4x4096x1024_S1024x2048_S4x4096x2048_2_0_01_1_n_n_wf

class Facts : Prop extends Facts₀ where

variable [Facts]
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«175452_j15994458211120_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.LibKernelOps.lean ====
/-
  An affine layer as the kernel spells it, read at an index at the ideal (extended real) values and generic in the extents.

  * matmulNT_bias_apply — an [M, K] array against an [N, K] array contracted over their second axes into the zero
                          accumulator, plus an [N] bias viewed as the one row [1, N] and broadcast over the M rows:
                          entry (e, o) is the sum over r of x (e, r) * y (o, r), plus b o;
  * rowBroadcast_apply  — an [N] array viewed as [1, N] and broadcast to [M, N] reads, at (e, o), the array at o.
-/
import Idealize.ShloMosaic.PureOps.Ideal.Laws
import Idealize.ShloMosaic.Lib.Pipeline.Value
import Idealize.ShloMosaic.Lib.ValueIdx
import Idealize.ShloMosaic.Lib.ValueLayout
import proofs.«175452_j15994458211120_2_alg».proof.Proof.LibRowReduceProducts

noncomputable section

open scoped BigOperators

namespace Cert.LibKernelOps

open Idealize.ShloMosaic Idealize.ShloMosaic.ValueIdx

/-- An [N] array viewed as the one row [1, N] and broadcast over M rows reads, at (e, o), the array at o. -/
theorem rowBroadcast_apply {α : Type} {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (e : Fin M) (o : Fin N) :
    broadcastTo ⟨2, ![M, N]⟩ (shapeCast ⟨2, ![1, N]⟩ b h1) h2 (ix2 e o) = b (ix1 o) :=
  (broadcastTo_1b_ab_apply (shapeCast ⟨2, ![1, N]⟩ b h1) h2 e o).trans (shapeCast_a_1a_apply b h1 0 o)

/-- The product with the transpose of the right operand into the zero accumulator, plus a bias row broadcast over
    the rows: entry (e, o) is the inner product of row e of the left operand with row o of the right one, plus b o. -/
theorem matmulNT_bias_apply {M K N : ℕ} {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (e : Fin M) (o : Fin N) :
    addf (FloatOps.matmul D prec x y (constant ⟨2, ![M, N]⟩ .f32 0x00000000#32))
        (broadcastTo ⟨2, ![M, N]⟩ (shapeCast ⟨2, ![1, N]⟩ b h1) h2) (ix2 e o)
      = (∑ r : Fin K, x (ix2 e r) * y (ix2 o r)) + b (ix1 o) := by
  refine (addf_apply _ _ _).trans ?_
  refine (congrArg (· + _) (Cert.LibRowReduceProducts.matmulNT D hlc hrc hln hrn hlb hrb prec x y e o)).trans ?_
  exact congrArg (_ + ·) (rowBroadcast_apply b h1 h2 e o)

end Cert.LibKernelOps

end
-- ==== Proof.PolySpec.lean ====
/-
  The function both programs compute, stated once over the extended reals.

  For one row of the input (2048 entries `xr`), with the down-projection `dw` (2048 × 1024) and its bias `db`:
    the hidden row        h r = (∑ d, xr d * dw d r) + db r;
    its powers            h, h·h, (h·h)·h, …  — each the previous one times h, entry by entry;
  with the polynomial coefficients `co` (6 × 1024) and the cross matrices `cr` (5 × 1024 × 1024):
    the interleaved form  0 + h¹·co₀ + (h¹ cr₀)·h + h²·co₁ + (h² cr₁)·h + … + h⁶·co₅, summed left to right,
                          where (hᵏ crᵢ) q = ∑ r, hᵏ r * crᵢ r q;
    the fused form        (h¹·co₀ + … + h⁶·co₅) + (∑ i, ∑ r, hⁱ⁺¹ r * crᵢ r q) · h q,
                          the five products gathered into one sum before the common factor h q is applied;
  and with the up-projection `uw` (1024 × 2048) and its bias `ub`:
    the output row        out d = ((∑ q, acc q * uw q d) + ub d) + xr d.
  The two forms of the accumulator differ by the distributive law, which holds on real numbers and fails at
  the infinities; everything else is the same expression.
-/
import Idealize.ShloMosaic.PureOps.Ideal
import Idealize.ShloMosaic.Lib.ValueIdx

noncomputable section

open scoped BigOperators

namespace Cert.PolySpec

open Idealize.ShloMosaic Idealize.ShloMosaic.ValueIdx

/-- The hidden row: the input row against the down-projection, plus the bias. -/
def hid (xr : Fin 2048 → EReal) (dw : Fin 2048 → Fin 1024 → EReal) (db : Fin 1024 → EReal) (r : Fin 1024) : EReal :=
  (∑ d : Fin 2048, xr d * dw d r) + db r

/-- The powers of a row, entry by entry: `pwr h 0 = h` and `pwr h (k+1) = pwr h k · h`. -/
def pwr (h : Fin 1024 → EReal) : ℕ → Fin 1024 → EReal
  | 0 => h
  | k + 1 => fun r => pwr h k r * h r

/-- Row `h` to the power `k+1` against cross matrix `i`, at column `q`. -/
def crossAt (h : Fin 1024 → EReal) (cr : Fin 5 → Fin 1024 → Fin 1024 → EReal) (k : ℕ) (i : Fin 5) (q : Fin 1024) : EReal :=
  ∑ r : Fin 1024, pwr h k r * cr i r q

/-- The accumulator as the interleaved loop builds it, from zero, one term after the other. -/
def accLoop (h : Fin 1024 → EReal) (co : Fin 6 → Fin 1024 → EReal) (cr : Fin 5 → Fin 1024 → Fin 1024 → EReal)
    (q : Fin 1024) : EReal :=
  ((((((((((0 + pwr h 0 q * co 0 q) + crossAt h cr 0 0 q * h q) + pwr h 1 q * co 1 q) + crossAt h cr 1 1 q * h q)
    + pwr h 2 q * co 2 q) + crossAt h cr 2 2 q * h q) + pwr h 3 q * co 3 q) + crossAt h cr 3 3 q * h q)
    + pwr h 4 q * co 4 q) + crossAt h cr 4 4 q * h q) + pwr h 5 q * co 5 q

/-- The accumulator in the fused form: the polynomial part, plus the five cross products gathered in one sum
    and then multiplied by the common factor. -/
def accFused (h : Fin 1024 → EReal) (co : Fin 6 → Fin 1024 → EReal) (cr : Fin 5 → Fin 1024 → Fin 1024 → EReal)
    (q : Fin 1024) : EReal :=
  (((((pwr h 0 q * co 0 q + pwr h 1 q * co 1 q) + pwr h 2 q * co 2 q) + pwr h 3 q * co 3 q) + pwr h 4 q * co 4 q)
    + pwr h 5 q * co 5 q)
  + (∑ i : Fin 5, ∑ r : Fin 1024, pwr h i.val r * cr i r q) * h q

/-- The output row: the accumulator against the up-projection, plus its bias, plus the input row. -/
def outRow (acc : Fin 1024 → EReal) (uw : Fin 1024 → Fin 2048 → EReal) (ub : Fin 2048 → EReal)
    (xr : Fin 2048 → EReal) (d : Fin 2048) : EReal :=
  ((∑ q : Fin 1024, acc q * uw q d) + ub d) + xr d

/-- One output entry from the seven arrays given as functions of coordinates, for either form `acc` of the
    accumulator: batch `b`, position `s`, feature `d`. -/
def entry (acc : (Fin 1024 → EReal) → (Fin 6 → Fin 1024 → EReal) → (Fin 5 → Fin 1024 → Fin 1024 → EReal) → Fin 1024 → EReal)
    (x : Fin 4 → Fin 4096 → Fin 2048 → EReal) (dw : Fin 2048 → Fin 1024 → EReal) (db : Fin 1024 → EReal)
    (co : Fin 6 → Fin 1024 → EReal) (cr : Fin 5 → Fin 1024 → Fin 1024 → EReal)
    (uw : Fin 1024 → Fin 2048 → EReal) (ub : Fin 2048 → EReal) (b : Fin 4) (s : Fin 4096) (d : Fin 2048) : EReal :=
  outRow (acc (hid (x b s) dw db) co cr) uw ub (x b s) d

/-- The whole result array, for either form of the accumulator, from the seven argument arrays. -/
def whole (acc : (Fin 1024 → EReal) → (Fin 6 → Fin 1024 → EReal) → (Fin 5 → Fin 1024 → Fin 1024 → EReal) → Fin 1024 → EReal)
    (X : (⟨3, ![4, 4096, 2048]⟩ : Shape).Idx → EReal) (DW : (⟨2, ![2048, 1024]⟩ : Shape).Idx → EReal)
    (DB : (⟨1, ![1024]⟩ : Shape).Idx → EReal) (CO : (⟨2, ![6, 1024]⟩ : Shape).Idx → EReal)
    (CR : (⟨3, ![5, 1024, 1024]⟩ : Shape).Idx → EReal) (UW : (⟨2, ![1024, 2048]⟩ : Shape).Idx → EReal)
    (UB : (⟨1, ![2048]⟩ : Shape).Idx → EReal) : (⟨3, ![4, 4096, 2048]⟩ : Shape).Idx → EReal :=
  fun i => entry acc (fun b s d => X (ix3 b s d)) (fun d r => DW (ix2 d r)) (fun r => DB (ix1 r))
    (fun k r => CO (ix2 k r)) (fun k r q => CR (ix3 k r q)) (fun q d => UW (ix2 q d)) (fun d => UB (ix1 d))
    (i 0) (i 1) (i 2)

end Cert.PolySpec

end
-- ==== Proof.PayloadOps.lean ====
/-
  The body's arithmetic read at an entry, at the ideal (extended real) values, over the loaded blocks as variables.

  For a 128-row block x0 of the input, with the down-projection x1, its bias x2, the coefficient rows x3:
    * the hidden block, entry (p, r):   (∑ d, x0 (p, d) * x1 (d, r)) + x2 r;
    * its k-th power block is the previous one times the hidden block, entry by entry;
    * coefficient row k, cut out of the 6 × 1024 array, flattened, restored and broadcast over the 128 rows,
      is x3 (k, r) at entry (p, r);
    * the polynomial part, entry (p, r): h·c₀ + h²·c₁ + … + h⁶·c₅, summed left to right.
  And for the output, from the hidden block v9, the polynomial part v50, the flattened cross matrix v71
  (5120 × 1024), the 128 × 5120 row of powers v73, the up-projection v78, its bias v81 and the input block v1,
  entry (p, d):   ((∑ q, (v50 (p,q) + (∑ j, v73 (p,j) * v71 (j,q)) * v9 (p,q)) * v78 (q,d)) + v81 d) + v1 (p,d).
  A change of float format and a cast to the same shape are the identity.
-/
import proofs.«175452_j15994458211120_2_alg».proof.Proof.Gen.KernelIdeal.Skeleton
import proofs.«175452_j15994458211120_2_alg».proof.Proof.LibKernelOps
import proofs.«175452_j15994458211120_2_alg».proof.Proof.PolySpec
import Idealize.ShloMosaic.Lib.ValueLayout

noncomputable section

open scoped BigOperators

namespace Cert.PayloadOps

open Idealize.ShloMosaic Idealize.ShloMosaic.ValueIdx Cert.KernelIdeal Cert.KernelIdeal.Gen

/-- The hidden block at entry (p, r): row p of the input block against column r of the down-projection, plus the bias. -/
theorem hidden_apply (x0 : Vec Ideal S128x2048 .f32) (x1 : Vec Ideal S2048x1024 .bf16) (x2 : Vec Ideal S1024 .f32)
    (p : Fin 128) (r : Fin 1024) :
    k0_pay2 (F := Ideal) x0 x1 x2 (ix2 p r) = (∑ d : Fin 2048, x0 (ix2 p d) * x1 (ix2 d r)) + x2 (ix1 r) := by
  unfold k0_pay2 k0_pay1
  refine congrArg₂ (· + ·) ?_ (Cert.LibKernelOps.rowBroadcast_apply x2 _ _ p r)
  refine (Cert.LibRowReduceProducts.matmulNN _ rfl rfl rfl rfl rfl rfl none _ _ p r).trans ?_
  refine Finset.sum_congr rfl fun d _ => congrArg₂ (· * ·) ?_ ?_
  · exact congrFun (shapeCast_self x0 _) _
  · exact congrFun (shapeCast_self x1 _) _

/-- The hidden row of block row p as a function of the column. -/
abbrev hrow (x0 : Vec Ideal S128x2048 .f32) (x1 : Vec Ideal S2048x1024 .bf16) (x2 : Vec Ideal S1024 .f32)
    (p : Fin 128) : Fin 1024 → EReal := fun r => k0_pay2 (F := Ideal) x0 x1 x2 (ix2 p r)

/-- The power blocks are the powers of the hidden row. -/
theorem pow2_apply (x0 : Vec Ideal S128x2048 .f32) (x1 : Vec Ideal S2048x1024 .bf16) (x2 : Vec Ideal S1024 .f32)
    (p : Fin 128) (r : Fin 1024) :
    k0_pay3 (F := Ideal) x0 x1 x2 (ix2 p r) = Cert.PolySpec.pwr (hrow x0 x1 x2 p) 1 r := rfl
theorem pow3_apply (x0 : Vec Ideal S128x2048 .f32) (x1 : Vec Ideal S2048x1024 .bf16) (x2 : Vec Ideal S1024 .f32)
    (p : Fin 128) (r : Fin 1024) :
    k0_pay4 (F := Ideal) x0 x1 x2 (ix2 p r) = Cert.PolySpec.pwr (hrow x0 x1 x2 p) 2 r := rfl
theorem pow4_apply (x0 : Vec Ideal S128x2048 .f32) (x1 : Vec Ideal S2048x1024 .bf16) (x2 : Vec Ideal S1024 .f32)
    (p : Fin 128) (r : Fin 1024) :
    k0_pay5 (F := Ideal) x0 x1 x2 (ix2 p r) = Cert.PolySpec.pwr (hrow x0 x1 x2 p) 3 r := rfl
theorem pow5_apply (x0 : Vec Ideal S128x2048 .f32) (x1 : Vec Ideal S2048x1024 .bf16) (x2 : Vec Ideal S1024 .f32)
    (p : Fin 128) (r : Fin 1024) :
    k0_pay6 (F := Ideal) x0 x1 x2 (ix2 p r) = Cert.PolySpec.pwr (hrow x0 x1 x2 p) 4 r := rfl

/-- Coefficient row `o` cut out of the 6 × 1024 array, flattened, restored to one row and broadcast over the 128 rows. -/
theorem coefRow_apply (x3 : Vec Ideal S6x1024 .f32) (o : ℕ) (ho : o < 6) (hs : S6x1024.Slices ![o, 0] S1x1024)
    (h1 : S1x1024.ShapeCasts S1024) (h2 : S1024.ShapeCasts S1x1024) (hb : S1x1024.Broadcasts S128x1024)
    (p : Fin 128) (r : Fin 1024) :
    broadcastTo S128x1024 (shapeCast S1x1024 (shapeCast S1024 (extractStridedSlice S1x1024 ![o, 0] x3 hs) h1) h2) hb (ix2 p r)
      = x3 (ix2 (⟨o, ho⟩ : Fin 6) r) := by
  rw [shapeCast_shapeCast]
  refine (broadcastTo_1b_ab_apply _ hb p r).trans ?_
  exact slice2_axis0_apply o x3 hs 0 r ⟨o, ho⟩ (by simp)

/-- The polynomial part at entry (p, r). -/
theorem poly_apply (x0 : Vec Ideal S128x2048 .f32) (x1 : Vec Ideal S2048x1024 .bf16) (x2 : Vec Ideal S1024 .f32)
    (x3 : Vec Ideal S6x1024 .f32) (p : Fin 128) (r : Fin 1024) :
    k0_pay7 (F := Ideal) x0 x1 x2 x3 (ix2 p r)
      = (((((Cert.PolySpec.pwr (hrow x0 x1 x2 p) 0 r * x3 (ix2 0 r) + Cert.PolySpec.pwr (hrow x0 x1 x2 p) 1 r * x3 (ix2 1 r))
          + Cert.PolySpec.pwr (hrow x0 x1 x2 p) 2 r * x3 (ix2 2 r)) + Cert.PolySpec.pwr (hrow x0 x1 x2 p) 3 r * x3 (ix2 3 r))
          + Cert.PolySpec.pwr (hrow x0 x1 x2 p) 4 r * x3 (ix2 4 r)) + Cert.PolySpec.pwr (hrow x0 x1 x2 p) 5 r * x3 (ix2 5 r)) := by
  unfold k0_pay7
  refine congrArg₂ (fun a b : EReal => a + b) ?_ (congrArg (fun b : EReal => _ * b) (coefRow_apply x3 5 (by norm_num) _ _ _ _ p r))
  refine congrArg₂ (fun a b : EReal => a + b) ?_ (congrArg (fun b : EReal => _ * b) (coefRow_apply x3 4 (by norm_num) _ _ _ _ p r))
  refine congrArg₂ (fun a b : EReal => a + b) ?_ (congrArg (fun b : EReal => _ * b) (coefRow_apply x3 3 (by norm_num) _ _ _ _ p r))
  refine congrArg₂ (fun a b : EReal => a + b) ?_ (congrArg (fun b : EReal => _ * b) (coefRow_apply x3 2 (by norm_num) _ _ _ _ p r))
  refine congrArg₂ (fun a b : EReal => a + b) ?_ (congrArg (fun b : EReal => _ * b) (coefRow_apply x3 1 (by norm_num) _ _ _ _ p r))
  exact congrArg (fun b : EReal => _ * b) (coefRow_apply x3 0 (by norm_num) _ _ _ _ p r)

/-- The output payload at entry (p, d). -/
theorem out_apply (v1 : FVec Ideal S128x2048 .f32) (v9 v50 : FVec Ideal S128x1024 .f32) (v71 : Vec Ideal S5120x1024 .bf16)
    (v73 : Vec Ideal S128x5120 .bf16) (v78 : Vec Ideal S1024x2048 .bf16) (v81 : Vec Ideal S2048 .f32)
    (p : Fin 128) (d : Fin 2048) :
    k0_pay13 (F := Ideal) v1 v9 v50 v71 v73 v78 v81 (ix2 p d)
      = ((∑ q : Fin 1024, (v50 (ix2 p q) + (∑ j : Fin 5120, v73 (ix2 p j) * v71 (ix2 j q)) * v9 (ix2 p q)) * v78 (ix2 q d))
          + v81 (ix1 d)) + v1 (ix2 p d) := by
  unfold k0_pay13
  refine congrArg₂ (· + ·) (congrArg₂ (· + ·) ?_ (Cert.LibKernelOps.rowBroadcast_apply v81 _ _ p d)) rfl
  refine (Cert.LibRowReduceProducts.matmulNN _ rfl rfl rfl rfl rfl rfl none _ _ p d).trans ?_
  refine Finset.sum_congr rfl fun q _ => congrArg₂ (· * ·) ?_ (congrFun (shapeCast_self v78 _) _)
  refine congrArg (fun s : EReal => v50 (ix2 p q) + s * v9 (ix2 p q)) ?_
  refine (Cert.LibRowReduceProducts.matmulNN _ rfl rfl rfl rfl rfl rfl none _ _ p q).trans ?_
  exact Finset.sum_congr rfl fun j _ => congrArg (fun b : EReal => v73 (ix2 p j) * b) (congrFun (shapeCast_self v71 _) _)

end Cert.PayloadOps

end
-- ==== Proof.ScratchCols.lean ====
/-
  A 128 × 5120 buffer filled by five stores of 128 × 1024 pieces side by side (columns 0–1023, 1024–2047, …,
  4096–5119) and then read back whole: the entry in row p and column b·1024 + r is entry (p, r) of the b-th
  piece. The stores are listed last first, as a run finds them; the pieces do not overlap, so the order does
  not matter, and every column lies in exactly one of them.
-/
import Idealize.ShloMosaic.Lib.Pipeline.Value
import Idealize.ShloMosaic.Lib.ValueIdx

noncomputable section

namespace Cert.ScratchCols

open Idealize.ShloMosaic Idealize.ShloMosaic.ValueIdx Idealize.ShloMosaic.View

variable {Val : EltTy → Type} [∀ e, Nonempty (Val e)] {s : Shape} {e : EltTy}

/-- Under the newest piece's unit-stride rectangle, the contents are its payload at the index minus the offsets. -/
theorem canon_cons_unit_of_mem {off size : Fin s.rank → ℕ} (inb : ∀ a, off a + size a ≤ s.size a)
    (w : (Rect.unit off size inb).shape.Idx → Val e) (L : List (Piece Val s e)) (y : s.Idx)
    (x : (Rect.unit off size inb).shape.Idx) (hx : ∀ a, (y a).val = off a + (x a).val) :
    View.canon ((⟨Rect.unit off size inb, w⟩ : Piece Val s e) :: L) y = w x := by
  have hy : (Rect.unit off size inb).emb x = y := funext fun a => Fin.ext (by
    show off a + 1 * (x a).val = (y a).val
    rw [hx a, Nat.one_mul])
  exact (congrArg (View.canon ((⟨Rect.unit off size inb, w⟩ : Piece Val s e) :: L)) hy.symm).trans
    (View.canon_cons_emb (Rect.unit off size inb) w L x)

/-- Outside it on some axis, the contents are what the earlier pieces left. -/
theorem canon_cons_unit_of_not_mem {off size : Fin s.rank → ℕ} (inb : ∀ a, off a + size a ≤ s.size a)
    (w : (Rect.unit off size inb).shape.Idx → Val e) (L : List (Piece Val s e)) (y : s.Idx)
    (a : Fin s.rank) (ha : (y a).val < off a ∨ off a + size a ≤ (y a).val) :
    View.canon ((⟨Rect.unit off size inb, w⟩ : Piece Val s e) :: L) y = View.canon L y := by
  refine View.canon_cons_of_not_mem _ L ?_
  rw [Rect.mem_set_unit]
  intro hall
  have := hall a
  omega

/-- The column `i·1024 + r` of a row of 5120, for `i < 5` and `r < 1024`. -/
abbrev col (i : Fin 5) (r : Fin 1024) : Fin 5120 := ⟨i.val * 1024 + r.val, by have := i.isLt; have := r.isLt; omega⟩

/-- The pieces' rectangles and the whole buffer, with their in-bounds evidence as hypotheses. -/
structure Bounds where
  inb0 : ∀ a, (![0, 0] : Fin 2 → ℕ) a + (![128, 1024] : Fin 2 → ℕ) a ≤ (⟨2, ![128, 5120]⟩ : Shape).size a
  inb1 : ∀ a, (![0, 1024] : Fin 2 → ℕ) a + (![128, 1024] : Fin 2 → ℕ) a ≤ (⟨2, ![128, 5120]⟩ : Shape).size a
  inb2 : ∀ a, (![0, 2048] : Fin 2 → ℕ) a + (![128, 1024] : Fin 2 → ℕ) a ≤ (⟨2, ![128, 5120]⟩ : Shape).size a
  inb3 : ∀ a, (![0, 3072] : Fin 2 → ℕ) a + (![128, 1024] : Fin 2 → ℕ) a ≤ (⟨2, ![128, 5120]⟩ : Shape).size a
  inb4 : ∀ a, (![0, 4096] : Fin 2 → ℕ) a + (![128, 1024] : Fin 2 → ℕ) a ≤ (⟨2, ![128, 5120]⟩ : Shape).size a

/-- The stores, last first: the first one alone, then each later one put in front. -/
abbrev pcs0 (B : Bounds) (w0 : (⟨2, ![128, 1024]⟩ : Shape).Idx → Val e) : List (Piece Val (⟨2, ![128, 5120]⟩ : Shape) e) :=
  [⟨Rect.unit ![0, 0] ![128, 1024] B.inb0, w0⟩]
abbrev pcs1 (B : Bounds) (w0 w1 : (⟨2, ![128, 1024]⟩ : Shape).Idx → Val e) : List (Piece Val (⟨2, ![128, 5120]⟩ : Shape) e) :=
  ⟨Rect.unit ![0, 1024] ![128, 1024] B.inb1, w1⟩ :: pcs0 B w0
abbrev pcs2 (B : Bounds) (w0 w1 w2 : (⟨2, ![128, 1024]⟩ : Shape).Idx → Val e) : List (Piece Val (⟨2, ![128, 5120]⟩ : Shape) e) :=
  ⟨Rect.unit ![0, 2048] ![128, 1024] B.inb2, w2⟩ :: pcs1 B w0 w1
abbrev pcs3 (B : Bounds) (w0 w1 w2 w3 : (⟨2, ![128, 1024]⟩ : Shape).Idx → Val e) : List (Piece Val (⟨2, ![128, 5120]⟩ : Shape) e) :=
  ⟨Rect.unit ![0, 3072] ![128, 1024] B.inb3, w3⟩ :: pcs2 B w0 w1 w2
/-- All five stores, last first. -/
abbrev fivePieces (B : Bounds) (w0 w1 w2 w3 w4 : (⟨2, ![128, 1024]⟩ : Shape).Idx → Val e) :
    List (Piece Val (⟨2, ![128, 5120]⟩ : Shape) e) :=
  ⟨Rect.unit ![0, 4096] ![128, 1024] B.inb4, w4⟩ :: pcs3 B w0 w1 w2 w3

/-- Row `p`, column `j` of the buffer is row `p`, column `r` of a piece placed at column offset `o`, when `j = o + r`. -/
theorem at_offset (p : Fin 128) (j : Fin 5120) (r : Fin 1024) (o : ℕ) (hj : j.val = o + r.val) (a : Fin 2) :
    ((ix2 p j : (⟨2, ![128, 5120]⟩ : Shape).Idx) a).val
      = (![0, o] : Fin 2 → ℕ) a + ((ix2 p r : (⟨2, ![128, 1024]⟩ : Shape).Idx) a).val := by
  match a with
  | ⟨0, _⟩ => exact (Nat.zero_add _).symm
  | ⟨1, _⟩ => exact hj

/-- Column `j` lies left of a piece placed at column offset `o`. -/
theorem left_of (p : Fin 128) (j : Fin 5120) (o : ℕ) (hj : j.val < o) :
    ((ix2 p j : (⟨2, ![128, 5120]⟩ : Shape).Idx) 1).val < (![0, o] : Fin 2 → ℕ) 1
      ∨ (![0, o] : Fin 2 → ℕ) 1 + (![128, 1024] : Fin 2 → ℕ) 1 ≤ ((ix2 p j : (⟨2, ![128, 5120]⟩ : Shape).Idx) 1).val :=
  Or.inl hj

-- the contents are compared through the two lemmas above only, never by evaluating them
attribute [local irreducible] View.canon

variable (B : Bounds) (w0 w1 w2 w3 w4 : (⟨2, ![128, 1024]⟩ : Shape).Idx → Val e) (p : Fin 128) (j : Fin 5120) (r : Fin 1024)

theorem cols4 (hj : j.val = 4096 + r.val) : View.canon (fivePieces B w0 w1 w2 w3 w4) (ix2 p j) = w4 (ix2 p r) := by
  have h := canon_cons_unit_of_mem B.inb4 w4 (pcs3 B w0 w1 w2 w3) (ix2 p j) (ix2 p r) (at_offset p j r 4096 hj)
  exact h

theorem cols3 (hj : j.val = 3072 + r.val) : View.canon (fivePieces B w0 w1 w2 w3 w4) (ix2 p j) = w3 (ix2 p r) := by
  have hr := r.isLt
  have n4 := canon_cons_unit_of_not_mem B.inb4 w4 (pcs3 B w0 w1 w2 w3) (ix2 p j) 1 (left_of p j 4096 (by omega))
  have h := canon_cons_unit_of_mem B.inb3 w3 (pcs2 B w0 w1 w2) (ix2 p j) (ix2 p r) (at_offset p j r 3072 hj)
  exact n4.trans h

theorem cols2 (hj : j.val = 2048 + r.val) : View.canon (fivePieces B w0 w1 w2 w3 w4) (ix2 p j) = w2 (ix2 p r) := by
  have hr := r.isLt
  have n4 := canon_cons_unit_of_not_mem B.inb4 w4 (pcs3 B w0 w1 w2 w3) (ix2 p j) 1 (left_of p j 4096 (by omega))
  have n3 := canon_cons_unit_of_not_mem B.inb3 w3 (pcs2 B w0 w1 w2) (ix2 p j) 1 (left_of p j 3072 (by omega))
  have h := canon_cons_unit_of_mem B.inb2 w2 (pcs1 B w0 w1) (ix2 p j) (ix2 p r) (at_offset p j r 2048 hj)
  exact n4.trans (n3.trans h)

theorem cols1 (hj : j.val = 1024 + r.val) : View.canon (fivePieces B w0 w1 w2 w3 w4) (ix2 p j) = w1 (ix2 p r) := by
  have hr := r.isLt
  have n4 := canon_cons_unit_of_not_mem B.inb4 w4 (pcs3 B w0 w1 w2 w3) (ix2 p j) 1 (left_of p j 4096 (by omega))
  have n3 := canon_cons_unit_of_not_mem B.inb3 w3 (pcs2 B w0 w1 w2) (ix2 p j) 1 (left_of p j 3072 (by omega))
  have n2 := canon_cons_unit_of_not_mem B.inb2 w2 (pcs1 B w0 w1) (ix2 p j) 1 (left_of p j 2048 (by omega))
  have h := canon_cons_unit_of_mem B.inb1 w1 (pcs0 B w0) (ix2 p j) (ix2 p r) (at_offset p j r 1024 hj)
  exact n4.trans (n3.trans (n2.trans h))

theorem cols0 (hj : j.val = 0 + r.val) : View.canon (fivePieces B w0 w1 w2 w3 w4) (ix2 p j) = w0 (ix2 p r) := by
  have hr := r.isLt
  have n4 := canon_cons_unit_of_not_mem B.inb4 w4 (pcs3 B w0 w1 w2 w3) (ix2 p j) 1 (left_of p j 4096 (by omega))
  have n3 := canon_cons_unit_of_not_mem B.inb3 w3 (pcs2 B w0 w1 w2) (ix2 p j) 1 (left_of p j 3072 (by omega))
  have n2 := canon_cons_unit_of_not_mem B.inb2 w2 (pcs1 B w0 w1) (ix2 p j) 1 (left_of p j 2048 (by omega))
  have n1 := canon_cons_unit_of_not_mem B.inb1 w1 (pcs0 B w0) (ix2 p j) 1 (left_of p j 1024 (by omega))
  have h := canon_cons_unit_of_mem B.inb0 w0 [] (ix2 p j) (ix2 p r) (at_offset p j r 0 hj)
  exact n4.trans (n3.trans (n2.trans (n1.trans h)))

omit B w0 w1 w2 w3 w4 p j r in
/-- A load of the whole buffer after the stores reads the contents they left. -/
theorem readCov_whole {sig : RefSig} {κ : Kind} {sp : Space} {S : Shape}
    (v : View sig κ sp S e) (L : List (Piece Val S e)) {off : Fin S.rank → Nat} (h : off = fun _ => 0)
    (inb : ∀ a, off a + S.size a ≤ S.size a) :
    v.readCov L (Rect.unit off S.size inb).toLoadRect = View.canon L := by
  rw [View.readCov_eq_canon']
  exact View.ld_unit_zero h inb (View.canon L)

end Cert.ScratchCols

end
-- ==== Proof.LibBlockedSum.lean ====
/-
  Sums over a range of indices cut into equal consecutive blocks, and the closed form of an accumulator
  that starts from a given value and adds one term per step. Nothing here is specific to one kernel: the
  statements are over an arbitrary additive commutative monoid, with two instances at literal extents.
-/
import Mathlib.Algebra.BigOperators.Fin
import Mathlib.Data.Fintype.BigOperators
import Mathlib.Logic.Equiv.Fin.Basic

open scoped BigOperators

namespace BlockedSum

/-- The position `b * bs + j` of offset `j` inside block `b`, of `nb` blocks of `bs` positions each, is below
    the total extent `nb * bs`. -/
theorem block_pos_lt {nb bs : ℕ} (b : Fin nb) (j : Fin bs) : b.val * bs + j.val < nb * bs :=
  calc b.val * bs + j.val < b.val * bs + bs := Nat.add_lt_add_left j.isLt _
    _ = (b.val + 1) * bs := (Nat.succ_mul _ _).symm
    _ ≤ nb * bs := Nat.mul_le_mul_right _ b.isLt

/-- A sum over `nb * bs` consecutive positions is the sum over the `nb` blocks of the sums inside each block:
    `∑ b, ∑ j, f (b * bs + j) = ∑ k, f k`, in any additive commutative monoid. -/
theorem sum_blocks {M : Type*} [AddCommMonoid M] {nb bs : ℕ} (f : Fin (nb * bs) → M) :
    ∑ b : Fin nb, ∑ j : Fin bs, f ⟨b.val * bs + j.val, block_pos_lt b j⟩ = ∑ k : Fin (nb * bs), f k := by
  rw [← Equiv.sum_comp (finProdFinEquiv (m := nb) (n := bs)) f, Fintype.sum_prod_type]
  refine Finset.sum_congr rfl fun b _ => Finset.sum_congr rfl fun j _ => congrArg f (Fin.ext ?_)
  show b.val * bs + j.val = j.val + bs * b.val
  rw [Nat.add_comm, Nat.mul_comm]

/-- The same with the summand given on natural numbers below the extent (the proof of the bound is irrelevant). -/
theorem sum_blocks' {M : Type*} [AddCommMonoid M] {nb bs : ℕ} (f : (k : ℕ) → k < nb * bs → M) :
    ∑ b : Fin nb, ∑ j : Fin bs, f (b.val * bs + j.val) (block_pos_lt b j) = ∑ k : Fin (nb * bs), f k.val k.isLt :=
  sum_blocks (fun k => f k.val k.isLt)

/-- Four blocks of 2048 make 8192: `∑ b : Fin 4, ∑ j : Fin 2048, f (b * 2048 + j) = ∑ k : Fin 8192, f k`. -/
theorem sum_blocks_4_2048 {M : Type*} [AddCommMonoid M] (f : Fin 8192 → M) :
    ∑ b : Fin 4, ∑ j : Fin 2048, f ⟨b.val * 2048 + j.val, by have := b.isLt; have := j.isLt; omega⟩ = ∑ k : Fin 8192, f k :=
  sum_blocks (nb := 4) (bs := 2048) f

/-- Two blocks of 2048 make 4096: `∑ b : Fin 2, ∑ j : Fin 2048, f (b * 2048 + j) = ∑ k : Fin 4096, f k`. -/
theorem sum_blocks_2_2048 {M : Type*} [AddCommMonoid M] (f : Fin 4096 → M) :
    ∑ b : Fin 2, ∑ j : Fin 2048, f ⟨b.val * 2048 + j.val, by have := b.isLt; have := j.isLt; omega⟩ = ∑ k : Fin 4096, f k :=
  sum_blocks (nb := 2) (bs := 2048) f

/-- The running form: a sequence that starts at `z` and adds `g t` at step `t`, for every step below `n`, is at
    step `n` the start plus the sum of the first `n` terms. -/
theorem running_sum_range {M : Type*} [AddCommMonoid M] (a g : ℕ → M) (z : M) (n : ℕ)
    (h0 : a 0 = z) (hs : ∀ t, t < n → a (t + 1) = a t + g t) : a n = z + ∑ t ∈ Finset.range n, g t := by
  induction n with
  | zero => rw [Finset.range_zero, Finset.sum_empty, add_zero, h0]
  | succ m ih =>
    rw [hs m (Nat.lt_succ_self m), ih fun t ht => hs t (Nat.lt_succ_of_lt ht), Finset.sum_range_succ, add_assoc]

/-- The same for every step, without a bound. -/
theorem running_sum_range_all {M : Type*} [AddCommMonoid M] (a g : ℕ → M) (z : M)
    (h0 : a 0 = z) (hs : ∀ t, a (t + 1) = a t + g t) (n : ℕ) : a n = z + ∑ t ∈ Finset.range n, g t :=
  running_sum_range a g z n h0 fun t _ => hs t

/-- The running form with the terms indexed by `Fin n`: a sequence that starts at `z` and adds `g t` at step
    `t : Fin n` is at step `n` the start plus the sum of all `n` terms. -/
theorem running_sum_fin {M : Type*} [AddCommMonoid M] {n : ℕ} (a : ℕ → M) (g : Fin n → M) (z : M)
    (h0 : a 0 = z) (hs : ∀ t : Fin n, a (t.val + 1) = a t.val + g t) : a n = z + ∑ t : Fin n, g t := by
  have h := running_sum_range a (fun t => if ht : t < n then g ⟨t, ht⟩ else 0) z n h0 fun t ht => by
    rw [dif_pos ht]; exact hs ⟨t, ht⟩
  rw [h, ← Fin.sum_univ_eq_sum_range (fun t => if ht : t < n then g ⟨t, ht⟩ else 0) n]
  exact congrArg (z + ·) (Finset.sum_congr rfl fun t _ => dif_pos t.isLt)

/-- An accumulator that starts at zero: the sum of the terms alone. -/
theorem running_sum_fin_zero {M : Type*} [AddCommMonoid M] {n : ℕ} (a : ℕ → M) (g : Fin n → M)
    (h0 : a 0 = 0) (hs : ∀ t : Fin n, a (t.val + 1) = a t.val + g t) : a n = ∑ t : Fin n, g t := by
  rw [running_sum_fin a g 0 h0 hs, zero_add]

end BlockedSum
-- ==== Proof.BlockValue.lean ====
/-
  What one grid point's body leaves in its output block, entry by entry, at the ideal values.

  The body loads the seven input blocks, stores the first five powers of the hidden block side by side in a
  128 × 5120 scratch buffer, reads that buffer back whole and multiplies it by the flattened cross matrix:
  row p of the product, at column q, is ∑ j < 5120, scratch (p, j) · cross (j, q). Cutting the 5120 columns into
  five blocks of 1024 (column i·1024 + r is entry r of the (i+1)-th power) makes it
  ∑ i < 5, ∑ r < 1024, h(p)ⁱ⁺¹ r · cross (i·1024 + r, q): the fused form of the accumulator. The rest of the body
  is the polynomial part, the common factor, the up-projection, its bias and the input block.
-/
import proofs.«175452_j15994458211120_2_alg».proof.Proof.Gen.KernelIdeal.Frame
import proofs.«175452_j15994458211120_2_alg».proof.Proof.PayloadOps
import proofs.«175452_j15994458211120_2_alg».proof.Proof.ScratchCols
import proofs.«175452_j15994458211120_2_alg».proof.Proof.LibBlockedSum

set_option maxRecDepth 16384

noncomputable section

namespace Cert.KernelIdeal.BlockValue

open Idealize.ShloMosaic Idealize.ShloMosaic.TcCoe Idealize.ShloMosaic.Tactic Idealize.ShloMosaic.ValueIdx
open Cert.KernelIdeal Cert.KernelIdeal.Gen Cert.PayloadOps
open scoped BigOperators
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zero_offsets2 : (![0, 0] : Fin 2 → Nat) = fun _ => 0 := funext fun a => by fin_cases a <;> rfl
theorem zero_offsets1 : (![0] : Fin 1 → Nat) = fun _ => 0 := funext fun a => by fin_cases a; rfl

/-- Where the five stores into the scratch buffer go. -/
def scratchBounds : Cert.ScratchCols.Bounds :=
  ⟨inb_S128x5120_S128x1024_0_0, inb_S128x5120_S128x1024_0_1024, inb_S128x5120_S128x1024_0_2048,
    inb_S128x5120_S128x1024_0_3072, inb_S128x5120_S128x1024_0_4096⟩

/-- The scratch buffer as the five stores leave it: the five stored blocks side by side. -/
abbrev scratch (x0 : Vec F S128x2048 .f32) (x1 : Vec F S2048x1024 .bf16) (x2 : Vec F S1024 .f32) : Vec F S128x5120 .bf16 :=
  View.canon (Cert.ScratchCols.fivePieces (Val := Elt F) (e := .bf16) scratchBounds (k0_pay8 (k0_pay2 x0 x1 x2)) (k0_pay9 (k0_pay3 x0 x1 x2))
    (k0_pay10 (k0_pay4 x0 x1 x2)) (k0_pay11 (k0_pay5 x0 x1 x2)) (k0_pay12 (k0_pay6 x0 x1 x2)))

/-- The output block the run found is the output payload of the loaded blocks and of the scratch buffer as the
    five stores left it (at any float instance). -/
theorem out_block_eq (c : Dev nD) (i : grid0.Coords) (arg1 : Memref sig .tc .vmem S128x2048 .f32) (harg1 : arg1.IsWhole) (arg2 : Memref sig .tc .vmem S2048x1024 .bf16) (harg2 : arg2.IsWhole) (arg3 : Memref sig .tc .vmem S1024 .f32) (harg3 : arg3.IsWhole) (arg4 : Memref sig .tc .vmem S6x1024 .f32) (harg4 : arg4.IsWhole) (arg5 : Memref sig .tc .vmem S5120x1024 .bf16) (harg5 : arg5.IsWhole) (arg6 : Memref sig .tc .vmem S1024x2048 .bf16) (harg6 : arg6.IsWhole) (arg7 : Memref sig .tc .vmem S2048 .f32) (harg7 : arg7.IsWhole) (arg8 : Memref sig .tc .vmem S128x2048 .f32) (harg8 : arg8.IsWhole) (arg9 : Memref sig .tc .vmem S128x5120 .bf16) (harg9 : arg9.IsWhole)
    (x0 : Vec F S128x2048 .f32) (x1 : Vec F S2048x1024 .bf16) (x2 : Vec F S1024 .f32) (x3 : Vec F S6x1024 .f32) (x4 : Vec F S5120x1024 .bf16) (x5 : Vec F S1024x2048 .bf16) (x6 : Vec F S2048 .f32) :
    out0_A_7 c i arg1 harg1 arg2 harg2 arg3 harg3 arg4 harg4 arg5 harg5 arg6 harg6 arg7 harg7 arg8 harg8 arg9 harg9 x0 x1 x2 x3 x4 x5 x6
      = k0_pay13 (k0_pay1 x0) (k0_pay2 x0 x1 x2) (k0_pay7 x0 x1 x2 x3) x4
          (scratch x0 x1 x2) x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero zero_offsets2]
  simp only [View.readAt_eq_ld, harg1.read_unread, harg2.read_unread, harg3.read_unread, harg4.read_unread, harg5.read_unread,
    harg6.read_unread, harg7.read_unread, View.ld_unit_zero (S := S128x2048) zero_offsets2, View.ld_unit_zero (S := S2048x1024) zero_offsets2,
    View.ld_unit_zero (S := S1024) zero_offsets1, View.ld_unit_zero (S := S6x1024) zero_offsets2, View.ld_unit_zero (S := S5120x1024) zero_offsets2,
    View.ld_unit_zero (S := S1024x2048) zero_offsets2, View.ld_unit_zero (S := S2048) zero_offsets1]
  rw [Cert.ScratchCols.readCov_whole _ _ zero_offsets2]

/-- Five blocks of 1024 make 5120. -/
theorem sum_blocks_5_1024 {M : Type*} [AddCommMonoid M] (f : Fin 5120 → M) :
    ∑ i : Fin 5, ∑ r : Fin 1024, f (Cert.ScratchCols.col i r) = ∑ k : Fin 5120, f k :=
  BlockedSum.sum_blocks (nb := 5) (bs := 1024) f

/-- The stored pieces are the powers of the hidden row (a change of format and a cast to the same shape are the identity). -/
theorem piece0_apply (x0 : Vec Ideal S128x2048 .f32) (x1 : Vec Ideal S2048x1024 .bf16) (x2 : Vec Ideal S1024 .f32) (p : Fin 128) (r : Fin 1024) :
    k0_pay8 (F := Ideal) (k0_pay2 x0 x1 x2) (ix2 p r) = Cert.PolySpec.pwr (hrow x0 x1 x2 p) 0 r := by
  unfold k0_pay8; exact congrFun (shapeCast_self _ _) _
theorem piece1_apply (x0 : Vec Ideal S128x2048 .f32) (x1 : Vec Ideal S2048x1024 .bf16) (x2 : Vec Ideal S1024 .f32) (p : Fin 128) (r : Fin 1024) :
    k0_pay9 (F := Ideal) (k0_pay3 x0 x1 x2) (ix2 p r) = Cert.PolySpec.pwr (hrow x0 x1 x2 p) 1 r := by
  unfold k0_pay9; exact (congrFun (shapeCast_self _ _) _).trans (pow2_apply x0 x1 x2 p r)
theorem piece2_apply (x0 : Vec Ideal S128x2048 .f32) (x1 : Vec Ideal S2048x1024 .bf16) (x2 : Vec Ideal S1024 .f32) (p : Fin 128) (r : Fin 1024) :
    k0_pay10 (F := Ideal) (k0_pay4 x0 x1 x2) (ix2 p r) = Cert.PolySpec.pwr (hrow x0 x1 x2 p) 2 r := by
  unfold k0_pay10; exact (congrFun (shapeCast_self _ _) _).trans (pow3_apply x0 x1 x2 p r)
theorem piece3_apply (x0 : Vec Ideal S128x2048 .f32) (x1 : Vec Ideal S2048x1024 .bf16) (x2 : Vec Ideal S1024 .f32) (p : Fin 128) (r : Fin 1024) :
    k0_pay11 (F := Ideal) (k0_pay5 x0 x1 x2) (ix2 p r) = Cert.PolySpec.pwr (hrow x0 x1 x2 p) 3 r := by
  unfold k0_pay11; exact (congrFun (shapeCast_self _ _) _).trans (pow4_apply x0 x1 x2 p r)
theorem piece4_apply (x0 : Vec Ideal S128x2048 .f32) (x1 : Vec Ideal S2048x1024 .bf16) (x2 : Vec Ideal S1024 .f32) (p : Fin 128) (r : Fin 1024) :
    k0_pay12 (F := Ideal) (k0_pay6 x0 x1 x2) (ix2 p r) = Cert.PolySpec.pwr (hrow x0 x1 x2 p) 4 r := by
  unfold k0_pay12; exact (congrFun (shapeCast_self _ _) _).trans (pow5_apply x0 x1 x2 p r)

/-- The scratch buffer read back: row p, column i·1024 + r is entry r of the (i+1)-th power of the hidden row. -/
theorem scratch_apply (x0 : Vec Ideal S128x2048 .f32) (x1 : Vec Ideal S2048x1024 .bf16) (x2 : Vec Ideal S1024 .f32)
    (p : Fin 128) (i : Fin 5) (r : Fin 1024) :
    (scratch (F := Ideal) x0 x1 x2 (ix2 p (Cert.ScratchCols.col i r)) : EReal) = Cert.PolySpec.pwr (hrow x0 x1 x2 p) i.val r := by
  match i with
  | ⟨0, _⟩ => exact (Cert.ScratchCols.cols0 scratchBounds _ _ _ _ _ p _ r (by show 0 * 1024 + r.val = 0 + r.val; omega)).trans (piece0_apply x0 x1 x2 p r)
  | ⟨1, _⟩ => exact (Cert.ScratchCols.cols1 scratchBounds _ _ _ _ _ p _ r (by show 1 * 1024 + r.val = 1024 + r.val; omega)).trans (piece1_apply x0 x1 x2 p r)
  | ⟨2, _⟩ => exact (Cert.ScratchCols.cols2 scratchBounds _ _ _ _ _ p _ r (by show 2 * 1024 + r.val = 2048 + r.val; omega)).trans (piece2_apply x0 x1 x2 p r)
  | ⟨3, _⟩ => exact (Cert.ScratchCols.cols3 scratchBounds _ _ _ _ _ p _ r (by show 3 * 1024 + r.val = 3072 + r.val; omega)).trans (piece3_apply x0 x1 x2 p r)
  | ⟨4, _⟩ => exact (Cert.ScratchCols.cols4 scratchBounds _ _ _ _ _ p _ r (by show 4 * 1024 + r.val = 4096 + r.val; omega)).trans (piece4_apply x0 x1 x2 p r)

/-- The accumulator the body builds, at entry (p, q), is the fused form over the hidden row. -/
theorem acc_apply (x0 : Vec Ideal S128x2048 .f32) (x1 : Vec Ideal S2048x1024 .bf16) (x2 : Vec Ideal S1024 .f32)
    (x3 : Vec Ideal S6x1024 .f32) (x4 : Vec Ideal S5120x1024 .bf16) (p : Fin 128) (q : Fin 1024) :
    k0_pay7 (F := Ideal) x0 x1 x2 x3 (ix2 p q)
        + (∑ j : Fin 5120, (scratch (F := Ideal) x0 x1 x2 (ix2 p j) : EReal) * x4 (ix2 j q))
          * k0_pay2 (F := Ideal) x0 x1 x2 (ix2 p q)
      = Cert.PolySpec.accFused (hrow x0 x1 x2 p) (fun k r => x3 (ix2 k r)) (fun i' r q' => x4 (ix2 (Cert.ScratchCols.col i' r) q')) q := by
  unfold Cert.PolySpec.accFused
  refine congrArg₂ (fun a b : EReal => a + b) (poly_apply x0 x1 x2 x3 p q) (congrArg (fun s : EReal => s * hrow x0 x1 x2 p q) ?_)
  refine (sum_blocks_5_1024 (fun j => (scratch (F := Ideal) x0 x1 x2 (ix2 p j) : EReal) * x4 (ix2 j q))).symm.trans ?_
  exact Finset.sum_congr rfl fun i _ => Finset.sum_congr rfl fun r _ =>
    congrArg (fun a : EReal => a * x4 (ix2 (Cert.ScratchCols.col i r) q)) (scratch_apply x0 x1 x2 p i r)

/-- THE BLOCK: what the body leaves at entry (p, d) of its output block, from the seven loaded blocks. -/
theorem out_block_apply (c : Dev nD) (i : grid0.Coords) (arg1 : Memref sig .tc .vmem S128x2048 .f32) (harg1 : arg1.IsWhole) (arg2 : Memref sig .tc .vmem S2048x1024 .bf16) (harg2 : arg2.IsWhole) (arg3 : Memref sig .tc .vmem S1024 .f32) (harg3 : arg3.IsWhole) (arg4 : Memref sig .tc .vmem S6x1024 .f32) (harg4 : arg4.IsWhole) (arg5 : Memref sig .tc .vmem S5120x1024 .bf16) (harg5 : arg5.IsWhole) (arg6 : Memref sig .tc .vmem S1024x2048 .bf16) (harg6 : arg6.IsWhole) (arg7 : Memref sig .tc .vmem S2048 .f32) (harg7 : arg7.IsWhole) (arg8 : Memref sig .tc .vmem S128x2048 .f32) (harg8 : arg8.IsWhole) (arg9 : Memref sig .tc .vmem S128x5120 .bf16) (harg9 : arg9.IsWhole)
    (x0 : Vec Ideal S128x2048 .f32) (x1 : Vec Ideal S2048x1024 .bf16) (x2 : Vec Ideal S1024 .f32) (x3 : Vec Ideal S6x1024 .f32) (x4 : Vec Ideal S5120x1024 .bf16) (x5 : Vec Ideal S1024x2048 .bf16) (x6 : Vec Ideal S2048 .f32)
    (p : Fin 128) (d : Fin 2048) :
    out0_A_7 (F := Ideal) c i arg1 harg1 arg2 harg2 arg3 harg3 arg4 harg4 arg5 harg5 arg6 harg6 arg7 harg7 arg8 harg8 arg9 harg9 x0 x1 x2 x3 x4 x5 x6 (ix2 p d)
      = Cert.PolySpec.outRow
          (Cert.PolySpec.accFused
            (Cert.PolySpec.hid (fun d' => x0 (ix2 p d')) (fun d' r => x1 (ix2 d' r)) (fun r => x2 (ix1 r)))
            (fun k r => x3 (ix2 k r)) (fun i' r q => x4 (ix2 (Cert.ScratchCols.col i' r) q)))
          (fun q d' => x5 (ix2 q d')) (fun d' => x6 (ix1 d')) (fun d' => x0 (ix2 p d')) d := by
  rw [out_block_eq]
  refine (out_apply _ _ _ _ _ _ _ p d).trans ?_
  have hh : hrow x0 x1 x2 p = Cert.PolySpec.hid (fun d' => x0 (ix2 p d')) (fun d' r => x1 (ix2 d' r)) (fun r => x2 (ix1 r)) :=
    funext fun r => hidden_apply x0 x1 x2 p r
  rw [← hh]
  unfold Cert.PolySpec.outRow
  refine congrArg₂ (fun a b : EReal => a + b) (congrArg (fun a : EReal => a + x6 (ix1 d)) ?_) (congrFun (shapeCast_self x0 _) _)
  exact Finset.sum_congr rfl fun q _ => congrArg (fun a : EReal => a * x5 (ix2 q d)) (acc_apply x0 x1 x2 x3 x4 p q)

end Cert.KernelIdeal.BlockValue

end
-- ==== Proof.HostArrays.lean ====
/-
  The arrays around the pipelined region, as functions of the launched arrays.

  Before the region the program flattens the input's two leading axes (4 × 4096 rows of 2048 → 16384 rows), rounds
  three weight arrays to the narrower format, and flattens the stack of five 1024 × 1024 matrices into 5120 rows; after
  the region it splits the 16384 output rows back into 4 × 4096. A flattening or splitting moves no entry: row
  b·4096 + s of the flat array is row (b, s) of the original, and row i·1024 + r of the flat stack is row r of
  matrix i, because both orders enumerate the entries row-major.
-/
import proofs.«175452_j15994458211120_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.HostArrays

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

variable (m : (ℓ : Loc nD τ sig) → Buf (Elt F) ℓ) (ρ : Dev nD → PrngReg)

/-! ## What the region finds in the arrays written before it -/

/-- The region finds the input flattened to 16384 rows. -/
theorem V_main_v0 (c : Dev nD) :
    (V m c main_v0 : S16384x2048.Idx → Elt F .f32)
      = shapeCast S16384x2048 (m ((c : Thread nD τ).loc main_arg0)) shapeCasts_S4x4096x2048_S16384x2048 := by
  show StableHlo.after hostOps0 (fun b => m (c, b)) (Proc.devRef .tc main_v0) = _
  after_results
  rfl

/-- The region finds the down-projection rounded to the narrower format. -/
theorem V_main_v1 (c : Dev nD) :
    (V m c main_v1 : S2048x1024.Idx → Elt F .bf16)
      = truncf .bf16 (m ((c : Thread nD τ).loc main_arg1)) bitsLt_bf16_f32 := by
  show StableHlo.after hostOps0 (fun b => m (c, b)) (Proc.devRef .tc main_v1) = _
  after_results

/-- The region finds the stack of cross matrices rounded to the narrower format and flattened to 5120 rows. -/
theorem V_main_v3 (c : Dev nD) :
    (V m c main_v3 : S5120x1024.Idx → Elt F .bf16)
      = shapeCast S5120x1024 (truncf .bf16 (m ((c : Thread nD τ).loc main_arg4)) bitsLt_bf16_f32)
          shapeCasts_S5x1024x1024_S5120x1024 := by
  show StableHlo.after hostOps0 (fun b => m (c, b)) (Proc.devRef .tc main_v3) = _
  after_results
  rfl

/-- The region finds the up-projection rounded to the narrower format. -/
theorem V_main_v4 (c : Dev nD) :
    (V m c main_v4 : S1024x2048.Idx → Elt F .bf16)
      = truncf .bf16 (m ((c : Thread nD τ).loc main_arg5)) bitsLt_bf16_f32 := by
  show StableHlo.after hostOps0 (fun b => m (c, b)) (Proc.devRef .tc main_v4) = _
  after_results

/-! ## The three changes of shape, read at an index -/

/-- Row `b·4096 + s` of the flattened input is row `(b, s)` of the input. -/
theorem rows_apply {α : Type} (X : S4x4096x2048.Idx → α) (h : S4x4096x2048.ShapeCasts S16384x2048)
    (b : Fin 4) (s : Fin 4096) (d : Fin 2048) :
    shapeCast S16384x2048 X h
        (ix2 (⟨b.val * 4096 + s.val, by have := b.isLt; have := s.isLt; omega⟩ : Fin 16384) d)
      = X (ix3 b s d) :=
  shapeCast_apply X h _ _ (by
    rw [Shape.rowMajor_val_three, Shape.rowMajor_val_two]
    rfl)

/-- Row `i·1024 + r` of the flattened stack is row `r` of matrix `i`. -/
theorem cross_apply {α : Type} (Y : S5x1024x1024.Idx → α) (h : S5x1024x1024.ShapeCasts S5120x1024)
    (i : Fin 5) (r q : Fin 1024) :
    shapeCast S5120x1024 Y h
        (ix2 (⟨i.val * 1024 + r.val, by have := i.isLt; have := r.isLt; omega⟩ : Fin 5120) q)
      = Y (ix3 i r q) :=
  shapeCast_apply Y h _ _ (by
    rw [Shape.rowMajor_val_three, Shape.rowMajor_val_two]
    rfl)

/-- Row `(b, s)` of the split output is row `b·4096 + s` of the flat output. -/
theorem back_apply {α : Type} (Z : S16384x2048.Idx → α) (h : S16384x2048.ShapeCasts S4x4096x2048)
    (b : Fin 4) (s : Fin 4096) (d : Fin 2048) :
    shapeCast S4x4096x2048 Z h (ix3 b s d)
      = Z (ix2 (⟨b.val * 4096 + s.val, by have := b.isLt; have := s.isLt; omega⟩ : Fin 16384) d) :=
  shapeCast_apply Z h _ _ (by
    rw [Shape.rowMajor_val_three, Shape.rowMajor_val_two]
    rfl)

/-! ## The array written after the region -/

/-- The result array is the region's 16384 output rows split back into 4 × 4096. -/
theorem tail_main_v6 (c : Dev nD) :
    (Pipeline.afterTail₀ cfgs (dats m) 0 (V0 m) [hostOps1] c main_v6 : S4x4096x2048.Idx → Elt F .f32)
      = shapeCast S4x4096x2048 ((dats m 0 c).arrAt 7 cfg0.N) shapeCasts_S16384x2048_S4x4096x2048 := by
  unfold Pipeline.afterTail₀
  show StableHlo.after hostOps1 _ (Proc.devRef .tc main_v6) = _
  after_results
  have e : Pipeline.withArrays (cfgs 0).spec c (V0 m c) (fun w => (dats m 0 c).arrAt w (cfgs 0).N)
        (Proc.devRef .tc main_v5) = (dats m 0 c).arrAt 7 cfg0.N :=
    Pipeline.withArrays_arr spec0 launch0.win.arr_inj c (V0 m c) (fun w => (dats m 0 c).arrAt w cfg0.N) 7
  rw [e]
  rfl

end Cert.KernelIdeal.HostArrays

end
-- ==== Proof.WholeArray.lean ====
/-
  From the blocks to the whole output array.

  The grid has 128 points. Point t loads rows t·128 … t·128 + 127 of the flattened input (16384 rows of 2048) and
  the six other arrays whole, and writes back the same rows of the flat output. Row n = t·128 + p of the flattened
  input is row (n / 4096, n % 4096) of the input; the flattened stack of cross matrices at row i·1024 + r is row r of
  matrix i; the narrower format changes nothing at the ideal values. So the block the body leaves at point t, entry
  (p, d), is the specification's output entry for input row n at feature d, and since every row n lies in the block
  of point n / 128, the flat output array ends holding, at (n, d), that entry.
-/
import proofs.«175452_j15994458211120_2_alg».proof.Proof.BlockValue
import proofs.«175452_j15994458211120_2_alg».proof.Proof.HostArrays

set_option maxRecDepth 16384

noncomputable section

namespace Cert.KernelIdeal.WholeArray

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.HostArrays Idealize.ShloMosaic.ValueIdx
open Cert.PolySpec

variable (m : (ℓ : Loc nD τ sig) → Buf (Elt Ideal) ℓ)

/-! ## Rows and the points that handle them -/

/-- A grid point is one of 128. -/
theorem point_lt (t : Fin cfg0.N) : t.val < 128 := lt_of_lt_of_eq t.isLt N_0

/-- The flat row `t·128 + p` that point `t` handles at row `p` of its block. -/
abbrev rowOf (t : Fin cfg0.N) (p : Fin 128) : Fin 16384 :=
  ⟨t.val * 128 + p.val, by have := point_lt t; have := p.isLt; omega⟩

/-- The batch and the position of a flat row. -/
abbrev batchOf (n : Fin 16384) : Fin 4 := ⟨n.val / 4096, by have := n.isLt; omega⟩
abbrev posOf (n : Fin 16384) : Fin 4096 := ⟨n.val % 4096, Nat.mod_lt _ (by norm_num)⟩

/-- Flat row `n` of the flattened input is row `(n / 4096, n % 4096)` of the input. -/
theorem rows_at {α : Type} (X : S4x4096x2048.Idx → α) (h : S4x4096x2048.ShapeCasts S16384x2048)
    (n : Fin 16384) (d : Fin 2048) :
    shapeCast S16384x2048 X h (ix2 n d) = X (ix3 (batchOf n) (posOf n) d) := by
  have e : n = (⟨(batchOf n).val * 4096 + (posOf n).val,
      by have := (batchOf n).isLt; have := (posOf n).isLt; omega⟩ : Fin 16384) :=
    Fin.ext (Nat.div_add_mod' n.val 4096).symm
  exact (congrArg (fun k => shapeCast S16384x2048 X h (ix2 k d)) e).trans
    (rows_apply X h (batchOf n) (posOf n) d)

/-! ## The printed index maps, decided once over the grid -/

/-- The input's and the output's row blocks move with the point; every other window is its whole array at every
    point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## The seven loaded blocks, read where their windows say -/

/-- The input block at point `t`: row `p` is flat row `t·128 + p`. -/
theorem blk0_apply (c : Dev nD) (t : Fin cfg0.N) (p : Fin 128) (d : Fin 2048) :
    (iblk m c 0 t : Vec Ideal S128x2048 .f32) (ix2 p d)
      = m ((c : Thread nD τ).loc main_arg0) (ix3 (batchOf (rowOf t p)) (posOf (rowOf t p)) d) := by
  obtain ⟨e0, e1, -⟩ := idx_facts t
  unfold iblk
  rw [View.read_apply]
  show (V m c main_v0 : S16384x2048.Idx → Elt Ideal .f32) (((cfg0.win 0).blk t).view.emb (ix2 p d)) = _
  have he : ((cfg0.win 0).blk t).view.emb (ix2 p d) = ix2 (rowOf t p) d := by
    funext a; apply Fin.ext
    match a with
    | ⟨0, _⟩ => show win0_0.index t (0 : Fin 2) * 128 + 1 * p.val = t.val * 128 + p.val; rw [e0]; omega
    | ⟨1, _⟩ => show win0_0.index t (1 : Fin 2) * 2048 + 1 * d.val = d.val; rw [e1]; omega
  rw [he, V_main_v0, rows_at]

/-- The down-projection block is the whole down-projection (the narrower format is the identity here). -/
theorem blk1_apply (c : Dev nD) (t : Fin cfg0.N) (d : Fin 2048) (r : Fin 1024) :
    (iblk m c 1 t : Vec Ideal S2048x1024 .bf16) (ix2 d r) = m ((c : Thread nD τ).loc main_arg1) (ix2 d r) := by
  obtain ⟨-, -, e0, e1, -⟩ := idx_facts t
  unfold iblk
  rw [View.read_apply]
  show (V m c main_v1 : S2048x1024.Idx → Elt Ideal .bf16) (((cfg0.win 1).blk t).view.emb (ix2 d r)) = _
  have he : ((cfg0.win 1).blk t).view.emb (ix2 d r) = ix2 d r := by
    funext a; apply Fin.ext
    match a with
    | ⟨0, _⟩ => show win0_1.index t (0 : Fin 2) * 2048 + 1 * d.val = d.val; rw [e0]; omega
    | ⟨1, _⟩ => show win0_1.index t (1 : Fin 2) * 1024 + 1 * r.val = r.val; rw [e1]; omega
  rw [he, V_main_v1]
  rfl

/-- The down-projection's bias block is the whole bias. -/
theorem blk2_apply (c : Dev nD) (t : Fin cfg0.N) (r : Fin 1024) :
    (iblk m c 2 t : Vec Ideal S1024 .f32) (ix1 r) = m ((c : Thread nD τ).loc main_arg2) (ix1 r) := by
  obtain ⟨-, -, -, -, e0, -⟩ := idx_facts t
  unfold iblk
  rw [View.read_apply]
  show (V m c main_arg2 : S1024.Idx → Elt Ideal .f32) (((cfg0.win 2).blk t).view.emb (ix1 r)) = _
  have he : ((cfg0.win 2).blk t).view.emb (ix1 r) = ix1 r := by
    funext a; apply Fin.ext
    match a with
    | ⟨0, _⟩ => show win0_2.index t (0 : Fin 1) * 1024 + 1 * r.val = r.val; rw [e0]; omega
  rw [he, V_main_arg2]

/-- The coefficient block is the whole coefficient table. -/
theorem blk3_apply (c : Dev nD) (t : Fin cfg0.N) (k : Fin 6) (r : Fin 1024) :
    (iblk m c 3 t : Vec Ideal S6x1024 .f32) (ix2 k r) = m ((c : Thread nD τ).loc main_arg3) (ix2 k r) := by
  obtain ⟨-, -, -, -, -, e0, e1, -⟩ := idx_facts t
  unfold iblk
  rw [View.read_apply]
  show (V m c main_arg3 : S6x1024.Idx → Elt Ideal .f32) (((cfg0.win 3).blk t).view.emb (ix2 k r)) = _
  have he : ((cfg0.win 3).blk t).view.emb (ix2 k r) = ix2 k r := by
    funext a; apply Fin.ext
    match a with
    | ⟨0, _⟩ => show win0_3.index t (0 : Fin 2) * 6 + 1 * k.val = k.val; rw [e0]; omega
    | ⟨1, _⟩ => show win0_3.index t (1 : Fin 2) * 1024 + 1 * r.val = r.val; rw [e1]; omega
  rw [he, V_main_arg3]

/-- The cross block is the whole flattened stack: its row `i·1024 + r` is row `r` of matrix `i`. -/
theorem blk4_apply (c : Dev nD) (t : Fin cfg0.N) (i : Fin 5) (r q : Fin 1024) :
    (iblk m c 4 t : Vec Ideal S5120x1024 .bf16) (ix2 (Cert.ScratchCols.col i r) q)
      = m ((c : Thread nD τ).loc main_arg4) (ix3 i r q) := by
  obtain ⟨-, -, -, -, -, -, -, e0, e1, -⟩ := idx_facts t
  unfold iblk
  rw [View.read_apply]
  show (V m c main_v3 : S5120x1024.Idx → Elt Ideal .bf16)
    (((cfg0.win 4).blk t).view.emb (ix2 (Cert.ScratchCols.col i r) q)) = _
  have he : ((cfg0.win 4).blk t).view.emb (ix2 (Cert.ScratchCols.col i r) q) = ix2 (Cert.ScratchCols.col i r) q := by
    funext a; apply Fin.ext
    match a with
    | ⟨0, _⟩ =>
      show win0_4.index t (0 : Fin 2) * 5120 + 1 * (i.val * 1024 + r.val) = i.val * 1024 + r.val; rw [e0]; omega
    | ⟨1, _⟩ => show win0_4.index t (1 : Fin 2) * 1024 + 1 * q.val = q.val; rw [e1]; omega
  rw [he, V_main_v3]
  exact cross_apply _ _ i r q

/-- The up-projection block is the whole up-projection. -/
theorem blk5_apply (c : Dev nD) (t : Fin cfg0.N) (q : Fin 1024) (d : Fin 2048) :
    (iblk m c 5 t : Vec Ideal S1024x2048 .bf16) (ix2 q d) = m ((c : Thread nD τ).loc main_arg5) (ix2 q d) := by
  obtain ⟨-, -, -, -, -, -, -, -, -, e0, e1, -⟩ := idx_facts t
  unfold iblk
  rw [View.read_apply]
  show (V m c main_v4 : S1024x2048.Idx → Elt Ideal .bf16) (((cfg0.win 5).blk t).view.emb (ix2 q d)) = _
  have he : ((cfg0.win 5).blk t).view.emb (ix2 q d) = ix2 q d := by
    funext a; apply Fin.ext
    match a with
    | ⟨0, _⟩ => show win0_5.index t (0 : Fin 2) * 1024 + 1 * q.val = q.val; rw [e0]; omega
    | ⟨1, _⟩ => show win0_5.index t (1 : Fin 2) * 2048 + 1 * d.val = d.val; rw [e1]; omega
  rw [he, V_main_v4]
  rfl

/-- The up-projection's bias block is the whole bias. -/
theorem blk6_apply (c : Dev nD) (t : Fin cfg0.N) (d : Fin 2048) :
    (iblk m c 6 t : Vec Ideal S2048 .f32) (ix1 d) = m ((c : Thread nD τ).loc main_arg6) (ix1 d) := by
  obtain ⟨-, -, -, -, -, -, -, -, -, -, -, e0, -⟩ := idx_facts t
  unfold iblk
  rw [View.read_apply]
  show (V m c main_arg6 : S2048.Idx → Elt Ideal .f32) (((cfg0.win 6).blk t).view.emb (ix1 d)) = _
  have he : ((cfg0.win 6).blk t).view.emb (ix1 d) = ix1 d := by
    funext a; apply Fin.ext
    match a with
    | ⟨0, _⟩ => show win0_6.index t (0 : Fin 1) * 2048 + 1 * d.val = d.val; rw [e0]; omega
  rw [he, V_main_arg6]

/-! ## What each point writes back, and the whole array -/

/-- The specification's output entry for flat row `j 0` at feature `j 1`, from the launched arrays. -/
def rowsOut (c : Dev nD) : S16384x2048.Idx → EReal := fun j =>
  entry accFused
    (fun b s d => m ((c : Thread nD τ).loc main_arg0) (ix3 b s d)) (fun d r => m ((c : Thread nD τ).loc main_arg1) (ix2 d r))
    (fun r => m ((c : Thread nD τ).loc main_arg2) (ix1 r)) (fun k r => m ((c : Thread nD τ).loc main_arg3) (ix2 k r))
    (fun i r q => m ((c : Thread nD τ).loc main_arg4) (ix3 i r q)) (fun q d => m ((c : Thread nD τ).loc main_arg5) (ix2 q d))
    (fun d => m ((c : Thread nD τ).loc main_arg6) (ix1 d))
    ⟨(j 0).val / 4096, by have := idx2_lt0 j; omega⟩ ⟨(j 0).val % 4096, Nat.mod_lt _ (by norm_num)⟩ (j 1)

/-- Entry `(p, d)` of the block the body leaves at point `t` is the output entry of flat row `t·128 + p`. -/
theorem point_entry (c : Dev nD) (t : Fin cfg0.N) (p : Fin 128) (d : Fin 2048) :
    outsAt0 (F := Ideal) m c t (ix2 p d) = rowsOut m c (ix2 (rowOf t p) d) := by
  unfold outsAt0
  refine (Cert.KernelIdeal.BlockValue.out_block_apply c (grid0.coords t) (ms0_0 t) (hs0_0 t) (ms0_1 t) (hs0_1 t)
    (ms0_2 t) (hs0_2 t) (ms0_3 t) (hs0_3 t) (ms0_4 t) (hs0_4 t) (ms0_5 t) (hs0_5 t) (ms0_6 t) (hs0_6 t)
    (ms0_7 t) (hs0_7 t) scM0_0 (Memref.isWhole_whole _)
    (iblk m c 0 t) (iblk m c 1 t) (iblk m c 2 t) (iblk m c 3 t) (iblk m c 4 t) (iblk m c 5 t) (iblk m c 6 t) p d).trans ?_
  have h0 : (fun d' => (iblk m c 0 t : Vec Ideal S128x2048 .f32) (ix2 p d'))
      = fun d' => m ((c : Thread nD τ).loc main_arg0) (ix3 (batchOf (rowOf t p)) (posOf (rowOf t p)) d') :=
    funext fun d' => blk0_apply m c t p d'
  have h1 : (fun d' r => (iblk m c 1 t : Vec Ideal S2048x1024 .bf16) (ix2 d' r))
      = fun d' r => m ((c : Thread nD τ).loc main_arg1) (ix2 d' r) :=
    funext fun d' => funext fun r => blk1_apply m c t d' r
  have h2 : (fun r => (iblk m c 2 t : Vec Ideal S1024 .f32) (ix1 r))
      = fun r => m ((c : Thread nD τ).loc main_arg2) (ix1 r) :=
    funext fun r => blk2_apply m c t r
  have h3 : (fun k r => (iblk m c 3 t : Vec Ideal S6x1024 .f32) (ix2 k r))
      = fun k r => m ((c : Thread nD τ).loc main_arg3) (ix2 k r) :=
    funext fun k => funext fun r => blk3_apply m c t k r
  have h4 : (fun i' r q => (iblk m c 4 t : Vec Ideal S5120x1024 .bf16) (ix2 (Cert.ScratchCols.col i' r) q))
      = fun i' r q => m ((c : Thread nD τ).loc main_arg4) (ix3 i' r q) :=
    funext fun i' => funext fun r => funext fun q => blk4_apply m c t i' r q
  have h5 : (fun q d' => (iblk m c 5 t : Vec Ideal S1024x2048 .bf16) (ix2 q d'))
      = fun q d' => m ((c : Thread nD τ).loc main_arg5) (ix2 q d') :=
    funext fun q => funext fun d' => blk5_apply m c t q d'
  have h6 : (fun d' => (iblk m c 6 t : Vec Ideal S2048 .f32) (ix1 d'))
      = fun d' => m ((c : Thread nD τ).loc main_arg6) (ix1 d') :=
    funext fun d' => blk6_apply m c t d'
  rw [h0, h1, h2, h3, h4, h5, h6]
  rfl

/-- What point `t` writes back is block `t` of the output rows. -/
theorem flushed7_eq (c : Dev nD) (t : Fin cfg0.N) :
    (dats (F := Ideal) m 0 c).flushed 7 t = ((cfg0.win 7).blk t).view.read (Elt Ideal) (rowsOut m c) := by
  obtain ⟨-, -, -, -, -, -, -, -, -, -, -, -, e0, e1⟩ := idx_facts t
  show (cfg0.win 7).cut (grid0.coords t) ((dats m 0 c).after 7 t) = _
  rw [after0_7]
  have key : ∀ y : S128x2048.Idx,
      outsAt0 (F := Ideal) m c t y = rowsOut m c (((cfg0.win 7).blk t).view.emb y) := by
    intro y
    obtain ⟨p, d, rfl⟩ : ∃ (p : Fin 128) (d : Fin 2048), y = ix2 p d := ⟨y 0, y 1, eq_ix2 y⟩
    have he : ((cfg0.win 7).blk t).view.emb (ix2 p d) = ix2 (rowOf t p) d := by
      funext a; apply Fin.ext
      match a with
      | ⟨0, _⟩ => show win0_7.index t (0 : Fin 2) * 128 + 1 * p.val = t.val * 128 + p.val; rw [e0]; omega
      | ⟨1, _⟩ => show win0_7.index t (1 : Fin 2) * 2048 + 1 * d.val = d.val; rw [e1]; omega
    rw [he]
    exact point_entry m c t p d
  funext y
  exact key y

/-- An index of the flat output is in point `t`'s block iff each coordinate is in the block's range on its axis. -/
theorem mem_blk7 (t : Fin cfg0.N) (i : S16384x2048.Idx) :
    i ∈ ((cfg0.win 7).blk t).view.set ↔ ∀ a : Fin 2, win0_7.index t a * S128x2048.size a ≤ (i a).val
      ∧ (i a).val < win0_7.index t a * S128x2048.size a + S128x2048.size a := by
  show i ∈ ((View.whole main_v5).slice (win0_7.rect t)).set ↔ _
  rw [View.set_slice_whole, Rect.mem_set_unit]
  exact Iff.rfl

/-- Every index of the flat output is in the block of a point that writes back: row `n` in that of point `n / 128`. -/
theorem covered7 (i : S16384x2048.Idx) :
    ∃ t : Fin cfg0.N, (cfg0.win 7).flush t = true ∧ i ∈ ((cfg0.win 7).blk t).view.set := by
  have hi0 : (i 0).val < 16384 := idx2_lt0 i
  have hi1 : (i 1).val < 2048 := idx2_lt1 i
  let t : Fin cfg0.N := ⟨(i 0).val / 128, by rw [show cfg0.N = 128 from N_0]; omega⟩
  obtain ⟨-, -, -, -, -, -, -, -, -, -, -, -, e0, e1⟩ := idx_facts t
  have ht : t.val = (i 0).val / 128 := rfl
  refine ⟨t, flush0_7 t, ?_⟩
  rw [mem_blk7]
  intro a
  match a with
  | ⟨0, _⟩ =>
    show win0_7.index t (0 : Fin 2) * 128 ≤ (i 0).val ∧ (i 0).val < win0_7.index t (0 : Fin 2) * 128 + 128
    rw [e0, ht]; omega
  | ⟨1, _⟩ =>
    show win0_7.index t (1 : Fin 2) * 2048 ≤ (i 1).val ∧ (i 1).val < win0_7.index t (1 : Fin 2) * 2048 + 2048
    rw [e1]; omega

/-- The flat output array after the run: at `(n, d)` the specification's output entry of input row `n`. -/
theorem final7 (c : Dev nD) :
    (dats (F := Ideal) m 0 c).arrAt 7 cfg0.N
      = fun j : S16384x2048.Idx => Cert.PolySpec.entry Cert.PolySpec.accFused
          (fun b s d => m ((c : Thread nD τ).loc main_arg0) (ix3 b s d)) (fun d r => m ((c : Thread nD τ).loc main_arg1) (ix2 d r))
          (fun r => m ((c : Thread nD τ).loc main_arg2) (ix1 r)) (fun k r => m ((c : Thread nD τ).loc main_arg3) (ix2 k r))
          (fun i r q => m ((c : Thread nD τ).loc main_arg4) (ix3 i r q)) (fun q d => m ((c : Thread nD τ).loc main_arg5) (ix2 q d))
          (fun d => m ((c : Thread nD τ).loc main_arg6) (ix1 d))
          ⟨(j 0).val / 4096, by have := idx2_lt0 j; omega⟩ ⟨(j 0).val % 4096, Nat.mod_lt _ (by norm_num)⟩ (j 1) :=
  (dats (F := Ideal) m 0 c).arrAt_eq_of_cover 7 (rowsOut m c) (fun t _ => flushed7_eq m c t) (covered7)

end Cert.KernelIdeal.WholeArray

end
-- ==== Proof.KernelRun.lean ====
/-
  The idealized kernel's run with its result named.

  The region leaves the flattened [16384, 2048] output array with, at entry (n, d), the output row of input row
  n (batch n / 4096, position n % 4096) in the fused form of the accumulator; the one host operation after the
  region reshapes that array to [4, 4096, 2048], so entry (b, s, d) of the result is entry (b·4096 + s, d) of the
  flat array, and (b·4096 + s) / 4096 = b, (b·4096 + s) % 4096 = s. The argument arrays end as they began.
-/
import proofs.«175452_j15994458211120_2_alg».proof.Proof.WholeArray
import proofs.«175452_j15994458211120_2_alg».proof.Proof.HostArrays

set_option maxRecDepth 16384

noncomputable section

namespace Cert.KernelIdeal.KernelRun

open Idealize.ShloMosaic Idealize.ShloMosaic.TcCoe Idealize.ShloMosaic.Tactic Idealize.ShloMosaic.ValueIdx
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The reshaped output array is the whole result in the fused form, entry by entry. -/
theorem result_eq (c : Dev nD) :
    (shapeCast S4x4096x2048 ((dats (F := Ideal) m 0 c).arrAt 7 cfg0.N) shapeCasts_S16384x2048_S4x4096x2048 : S4x4096x2048.Idx → EReal)
      = Cert.PolySpec.whole Cert.PolySpec.accFused (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  funext i
  obtain ⟨b, s, d, rfl⟩ : ∃ (b : Fin 4) (s : Fin 4096) (d : Fin 2048), i = ix3 b s d := ⟨i 0, i 1, i 2, eq_ix3 i⟩
  refine (Cert.KernelIdeal.HostArrays.back_apply _ _ b s d).trans ?_
  rw [Cert.KernelIdeal.WholeArray.final7 m c]
  have hs := s.isLt
  exact congrArg₂ (fun (b' : Fin 4) (s' : Fin 4096) => Cert.PolySpec.entry Cert.PolySpec.accFused
      (fun b s d => m ((c : Thread nD τ).loc main_arg0) (ix3 b s d)) (fun d r => m ((c : Thread nD τ).loc main_arg1) (ix2 d r))
      (fun r => m ((c : Thread nD τ).loc main_arg2) (ix1 r)) (fun k r => m ((c : Thread nD τ).loc main_arg3) (ix2 k r))
      (fun i r q => m ((c : Thread nD τ).loc main_arg4) (ix3 i r q)) (fun q d => m ((c : Thread nD τ).loc main_arg5) (ix2 q d))
      (fun d => m ((c : Thread nD τ).loc main_arg6) (ix1 d)) b' s' d)
    (Fin.ext (by show (b.val * 4096 + s.val) / 4096 = b.val; omega))
    (Fin.ext (by show (b.val * 4096 + s.val) % 4096 = s.val; omega))

/-- Every weakly fair execution of the idealized kernel terminates with the result array at the fused form of the
    argument arrays, and the argument arrays unchanged. -/
theorem run : θ_run (defs (F := Ideal)) (onTc (τ := τ) (main (F := Ideal))) ⟨m, fun _ => 0, ρ⟩ (fun r => ∀ c : Dev nD,
      r.2.mem ((c.tc : Thread nD τ).loc main_v6) = Cert.PolySpec.whole Cert.PolySpec.accFused (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(((h c).2 main_v6 (Pipeline.mem_restRefs_of main_v6 (by decide) (by decide))).trans
        ((Cert.KernelIdeal.HostArrays.tail_main_v6 m c).trans (result_eq m c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c)))⟩)
    (run_main m ρ)

end Cert.KernelIdeal.KernelRun

end
-- ==== Proof.RefSide.lean ====
/-
  The reference program, read one output entry at a time, is the interleaved loop of the specification.

  Every stage of the program is read at an index from the stages before it: a contraction is a sum over its one
  contracted coordinate, a slice, reshape or broadcast reads its operand at a recomputed index, and an entrywise
  sum or product reads its two operands at the same index. Read in program order this gives
    the hidden row         h r = (∑ d, x d · dw d r) + db r,
    its powers             h, h·h, (h·h)·h, … each the previous one times h,
    the coefficient rows   co k r  (row k of the coefficient table, repeated over every position),
    the cross matrices     cr k r q (matrix k of the stack),
    the accumulator        0 + h¹·co₀ + (h¹ cr₀)·h + h²·co₁ + … + h⁶·co₅, added left to right,
    the output             ((∑ q, acc q · uw q d) + ub d) + x d,
  which is the specification's interleaved form term for term; no arithmetic law is used beyond the constant zero
  word being the number 0.
-/
import proofs.«175452_j15994458211120_2_alg».proof.Proof.Gen.ReferenceIdeal.Read
import proofs.«175452_j15994458211120_2_alg».proof.Proof.PolySpec

noncomputable section

open scoped BigOperators

namespace Cert.RefSide

open Cert.ReferenceIdeal Cert.ReferenceIdeal.Read Cert.PolySpec Idealize.ShloMosaic Idealize.ShloMosaic.ValueIdx

/-! The seven argument arrays of the program, at the ideal instance. -/
abbrev A0 : Type := (⟨S4x4096x2048, .f32⟩ : BufTy).Contents (Elt Ideal)
abbrev A1 : Type := (⟨S2048x1024, .f32⟩ : BufTy).Contents (Elt Ideal)
abbrev A2 : Type := (⟨S1024, .f32⟩ : BufTy).Contents (Elt Ideal)
abbrev A3 : Type := (⟨S6x1024, .f32⟩ : BufTy).Contents (Elt Ideal)
abbrev A4 : Type := (⟨S5x1024x1024, .f32⟩ : BufTy).Contents (Elt Ideal)
abbrev A5 : Type := (⟨S1024x2048, .f32⟩ : BufTy).Contents (Elt Ideal)
abbrev A6 : Type := (⟨S2048, .f32⟩ : BufTy).Contents (Elt Ideal)

/-! ## The hidden row -/

/-- The specification's hidden row for batch `b`, position `s`. -/
abbrev hrow (x0 : A0) (x1 : A1) (x2 : A2) (b : Fin 4) (s : Fin 4096) : Fin 1024 → EReal :=
  hid (fun d => x0 (ix3 b s d)) (fun d r => x1 (ix2 d r)) (fun r => x2 (ix1 r))

theorem lidx_v0 (b : Fin 4) (s : Fin 4096) (r : Fin 1024) (k : Fin 2048) :
    lidx_main_v0 (ix3 b s r) k = ix3 b s k :=
  funext fun a => by match a with | ⟨0, _⟩ => rfl | ⟨1, _⟩ => rfl | ⟨2, _⟩ => rfl

theorem ridx_v0 (b : Fin 4) (s : Fin 4096) (r : Fin 1024) (k : Fin 2048) :
    ridx_main_v0 (ix3 b s r) k = ix2 k r :=
  funext fun a => by match a with | ⟨0, _⟩ => rfl | ⟨1, _⟩ => rfl

theorem idx_v1v2 (b : Fin 4) (s : Fin 4096) (r : Fin 1024) :
    idx_main_v1 (idx_main_v2 (ix3 b s r)) = ix1 r :=
  funext fun a => by match a with | ⟨0, _⟩ => rfl

/-- Stage 3 is the hidden row. -/
theorem v3_at (x0 : A0) (x1 : A1) (x2 : A2) (b : Fin 4) (s : Fin 4096) (r : Fin 1024) :
    val_main_v3 (F := Ideal) x0 x1 x2 (ix3 b s r) = hrow x0 x1 x2 b s r := by
  rw [val_main_v3_apply, val_main_v0_apply, val_main_v2_apply, val_main_v1_apply, idx_v1v2]
  simp only [lidx_v0, ridx_v0, Ideal.addf_def]
  rfl

section
variable (x0 : A0) (x1 : A1) (x2 : A2) (x3 : A3) (x4 : A4) (x5 : A5) (x6 : A6)
variable (b : Fin 4) (s : Fin 4096)

/-! ## The powers of the hidden row -/

/-- Stage 16 is the hidden row to the power 2, entry by entry. -/
theorem v16_at (r : Fin 1024) :
    val_main_v16 (F := Ideal) x0 x1 x2 (ix3 b s r) = pwr (hrow x0 x1 x2 b s) 1 r := by
  rw [val_main_v16_apply, v3_at]
  rfl

/-- Stage 28 is the hidden row to the power 3, entry by entry. -/
theorem v28_at (r : Fin 1024) :
    val_main_v28 (F := Ideal) x0 x1 x2 (ix3 b s r) = pwr (hrow x0 x1 x2 b s) 2 r := by
  rw [val_main_v28_apply, v16_at, v3_at]
  rfl

/-- Stage 40 is the hidden row to the power 4, entry by entry. -/
theorem v40_at (r : Fin 1024) :
    val_main_v40 (F := Ideal) x0 x1 x2 (ix3 b s r) = pwr (hrow x0 x1 x2 b s) 3 r := by
  rw [val_main_v40_apply, v28_at, v3_at]
  rfl

/-- Stage 52 is the hidden row to the power 5, entry by entry. -/
theorem v52_at (r : Fin 1024) :
    val_main_v52 (F := Ideal) x0 x1 x2 (ix3 b s r) = pwr (hrow x0 x1 x2 b s) 4 r := by
  rw [val_main_v52_apply, v40_at, v3_at]
  rfl

/-- Stage 64 is the hidden row to the power 6, entry by entry. -/
theorem v64_at (r : Fin 1024) :
    val_main_v64 (F := Ideal) x0 x1 x2 (ix3 b s r) = pwr (hrow x0 x1 x2 b s) 5 r := by
  rw [val_main_v64_apply, v52_at, v3_at]
  rfl

/-! ## The coefficient rows: row `k` of the table, sliced out, flattened and repeated over every position -/

theorem idx_v8 (r : Fin 1024) :
    idx_main_v5 (idx_main_v6 (idx_main_v7 (idx_main_v8 (ix3 b s r)))) = ix2 (0 : Fin 6) r :=
  funext fun a => by
    match a with
    | ⟨0, _⟩ => rfl
    | ⟨1, _⟩ => exact Fin.ext (Nat.mod_eq_of_lt r.isLt)

/-- Stage 8 at any position is row 0 of the coefficient table. -/
theorem v8_at (r : Fin 1024) :
    val_main_v8 (F := Ideal) x3 (ix3 b s r) = x3 (ix2 (0 : Fin 6) r) := by
  rw [val_main_v8_apply, val_main_v7_apply, val_main_v6_apply, val_main_v5_apply, idx_v8]

theorem idx_v20 (r : Fin 1024) :
    idx_main_v17 (idx_main_v18 (idx_main_v19 (idx_main_v20 (ix3 b s r)))) = ix2 (1 : Fin 6) r :=
  funext fun a => by
    match a with
    | ⟨0, _⟩ => rfl
    | ⟨1, _⟩ => exact Fin.ext (Nat.mod_eq_of_lt r.isLt)

/-- Stage 20 at any position is row 1 of the coefficient table. -/
theorem v20_at (r : Fin 1024) :
    val_main_v20 (F := Ideal) x3 (ix3 b s r) = x3 (ix2 (1 : Fin 6) r) := by
  rw [val_main_v20_apply, val_main_v19_apply, val_main_v18_apply, val_main_v17_apply, idx_v20]

theorem idx_v32 (r : Fin 1024) :
    idx_main_v29 (idx_main_v30 (idx_main_v31 (idx_main_v32 (ix3 b s r)))) = ix2 (2 : Fin 6) r :=
  funext fun a => by
    match a with
    | ⟨0, _⟩ => rfl
    | ⟨1, _⟩ => exact Fin.ext (Nat.mod_eq_of_lt r.isLt)

/-- Stage 32 at any position is row 2 of the coefficient table. -/
theorem v32_at (r : Fin 1024) :
    val_main_v32 (F := Ideal) x3 (ix3 b s r) = x3 (ix2 (2 : Fin 6) r) := by
  rw [val_main_v32_apply, val_main_v31_apply, val_main_v30_apply, val_main_v29_apply, idx_v32]

theorem idx_v44 (r : Fin 1024) :
    idx_main_v41 (idx_main_v42 (idx_main_v43 (idx_main_v44 (ix3 b s r)))) = ix2 (3 : Fin 6) r :=
  funext fun a => by
    match a with
    | ⟨0, _⟩ => rfl
    | ⟨1, _⟩ => exact Fin.ext (Nat.mod_eq_of_lt r.isLt)

/-- Stage 44 at any position is row 3 of the coefficient table. -/
theorem v44_at (r : Fin 1024) :
    val_main_v44 (F := Ideal) x3 (ix3 b s r) = x3 (ix2 (3 : Fin 6) r) := by
  rw [val_main_v44_apply, val_main_v43_apply, val_main_v42_apply, val_main_v41_apply, idx_v44]

theorem idx_v56 (r : Fin 1024) :
    idx_main_v53 (idx_main_v54 (idx_main_v55 (idx_main_v56 (ix3 b s r)))) = ix2 (4 : Fin 6) r :=
  funext fun a => by
    match a with
    | ⟨0, _⟩ => rfl
    | ⟨1, _⟩ => exact Fin.ext (Nat.mod_eq_of_lt r.isLt)

/-- Stage 56 at any position is row 4 of the coefficient table. -/
theorem v56_at (r : Fin 1024) :
    val_main_v56 (F := Ideal) x3 (ix3 b s r) = x3 (ix2 (4 : Fin 6) r) := by
  rw [val_main_v56_apply, val_main_v55_apply, val_main_v54_apply, val_main_v53_apply, idx_v56]

theorem idx_v68 (r : Fin 1024) :
    idx_main_v65 (idx_main_v66 (idx_main_v67 (idx_main_v68 (ix3 b s r)))) = ix2 (5 : Fin 6) r :=
  funext fun a => by
    match a with
    | ⟨0, _⟩ => rfl
    | ⟨1, _⟩ => exact Fin.ext (Nat.mod_eq_of_lt r.isLt)

/-- Stage 68 at any position is row 5 of the coefficient table. -/
theorem v68_at (r : Fin 1024) :
    val_main_v68 (F := Ideal) x3 (ix3 b s r) = x3 (ix2 (5 : Fin 6) r) := by
  rw [val_main_v68_apply, val_main_v67_apply, val_main_v66_apply, val_main_v65_apply, idx_v68]

/-! ## The cross matrices: matrix `k` of the stack, sliced out and flattened -/

theorem idx_v12 (r q : Fin 1024) :
    idx_main_v11 (idx_main_v12 (ix2 r q)) = ix3 (0 : Fin 5) r q :=
  funext fun a => by
    have hr := r.isLt
    have hq := q.isLt
    match a with
    | ⟨0, _⟩ => rfl
    | ⟨1, _⟩ => exact Fin.ext (show (r.val * 1024 + q.val) / 1024 % 1024 = r.val by omega)
    | ⟨2, _⟩ => exact Fin.ext (show (r.val * 1024 + q.val) % 1024 = q.val by omega)

/-- Stage 12 is matrix 0 of the stack. -/
theorem v12_at (r q : Fin 1024) :
    val_main_v12 (F := Ideal) x4 (ix2 r q) = x4 (ix3 (0 : Fin 5) r q) := by
  rw [val_main_v12_apply, val_main_v11_apply, idx_v12]

theorem idx_v24 (r q : Fin 1024) :
    idx_main_v23 (idx_main_v24 (ix2 r q)) = ix3 (1 : Fin 5) r q :=
  funext fun a => by
    have hr := r.isLt
    have hq := q.isLt
    match a with
    | ⟨0, _⟩ => rfl
    | ⟨1, _⟩ => exact Fin.ext (show (r.val * 1024 + q.val) / 1024 % 1024 = r.val by omega)
    | ⟨2, _⟩ => exact Fin.ext (show (r.val * 1024 + q.val) % 1024 = q.val by omega)

/-- Stage 24 is matrix 1 of the stack. -/
theorem v24_at (r q : Fin 1024) :
    val_main_v24 (F := Ideal) x4 (ix2 r q) = x4 (ix3 (1 : Fin 5) r q) := by
  rw [val_main_v24_apply, val_main_v23_apply, idx_v24]

theorem idx_v36 (r q : Fin 1024) :
    idx_main_v35 (idx_main_v36 (ix2 r q)) = ix3 (2 : Fin 5) r q :=
  funext fun a => by
    have hr := r.isLt
    have hq := q.isLt
    match a with
    | ⟨0, _⟩ => rfl
    | ⟨1, _⟩ => exact Fin.ext (show (r.val * 1024 + q.val) / 1024 % 1024 = r.val by omega)
    | ⟨2, _⟩ => exact Fin.ext (show (r.val * 1024 + q.val) % 1024 = q.val by omega)

/-- Stage 36 is matrix 2 of the stack. -/
theorem v36_at (r q : Fin 1024) :
    val_main_v36 (F := Ideal) x4 (ix2 r q) = x4 (ix3 (2 : Fin 5) r q) := by
  rw [val_main_v36_apply, val_main_v35_apply, idx_v36]

theorem idx_v48 (r q : Fin 1024) :
    idx_main_v47 (idx_main_v48 (ix2 r q)) = ix3 (3 : Fin 5) r q :=
  funext fun a => by
    have hr := r.isLt
    have hq := q.isLt
    match a with
    | ⟨0, _⟩ => rfl
    | ⟨1, _⟩ => exact Fin.ext (show (r.val * 1024 + q.val) / 1024 % 1024 = r.val by omega)
    | ⟨2, _⟩ => exact Fin.ext (show (r.val * 1024 + q.val) % 1024 = q.val by omega)

/-- Stage 48 is matrix 3 of the stack. -/
theorem v48_at (r q : Fin 1024) :
    val_main_v48 (F := Ideal) x4 (ix2 r q) = x4 (ix3 (3 : Fin 5) r q) := by
  rw [val_main_v48_apply, val_main_v47_apply, idx_v48]

theorem idx_v60 (r q : Fin 1024) :
    idx_main_v59 (idx_main_v60 (ix2 r q)) = ix3 (4 : Fin 5) r q :=
  funext fun a => by
    have hr := r.isLt
    have hq := q.isLt
    match a with
    | ⟨0, _⟩ => rfl
    | ⟨1, _⟩ => exact Fin.ext (show (r.val * 1024 + q.val) / 1024 % 1024 = r.val by omega)
    | ⟨2, _⟩ => exact Fin.ext (show (r.val * 1024 + q.val) % 1024 = q.val by omega)

/-- Stage 60 is matrix 4 of the stack. -/
theorem v60_at (r q : Fin 1024) :
    val_main_v60 (F := Ideal) x4 (ix2 r q) = x4 (ix3 (4 : Fin 5) r q) := by
  rw [val_main_v60_apply, val_main_v59_apply, idx_v60]

/-! ## The cross products: a power of the hidden row against a cross matrix -/

theorem lidx_v13 (q k : Fin 1024) : lidx_main_v13 (ix3 b s q) k = ix3 b s k :=
  funext fun a => by match a with | ⟨0, _⟩ => rfl | ⟨1, _⟩ => rfl | ⟨2, _⟩ => rfl

theorem ridx_v13 (q k : Fin 1024) : ridx_main_v13 (ix3 b s q) k = ix2 k q :=
  funext fun a => by match a with | ⟨0, _⟩ => rfl | ⟨1, _⟩ => rfl

/-- Stage 13 is the power 1 of the hidden row against cross matrix 0. -/
theorem v13_at (q : Fin 1024) :
    val_main_v13 (F := Ideal) x0 x1 x2 x4 (ix3 b s q)
      = crossAt (hrow x0 x1 x2 b s) (fun k r q => x4 (ix3 k r q)) 0 0 q := by
  rw [val_main_v13_apply]
  unfold crossAt
  refine Finset.sum_congr rfl fun k _ => ?_
  rw [lidx_v13, ridx_v13, v3_at, v12_at]
  rfl

theorem lidx_v25 (q k : Fin 1024) : lidx_main_v25 (ix3 b s q) k = ix3 b s k :=
  funext fun a => by match a with | ⟨0, _⟩ => rfl | ⟨1, _⟩ => rfl | ⟨2, _⟩ => rfl

theorem ridx_v25 (q k : Fin 1024) : ridx_main_v25 (ix3 b s q) k = ix2 k q :=
  funext fun a => by match a with | ⟨0, _⟩ => rfl | ⟨1, _⟩ => rfl

/-- Stage 25 is the power 2 of the hidden row against cross matrix 1. -/
theorem v25_at (q : Fin 1024) :
    val_main_v25 (F := Ideal) x0 x1 x2 x4 (ix3 b s q)
      = crossAt (hrow x0 x1 x2 b s) (fun k r q => x4 (ix3 k r q)) 1 1 q := by
  rw [val_main_v25_apply]
  unfold crossAt
  refine Finset.sum_congr rfl fun k _ => ?_
  rw [lidx_v25, ridx_v25, v16_at, v24_at]

theorem lidx_v37 (q k : Fin 1024) : lidx_main_v37 (ix3 b s q) k = ix3 b s k :=
  funext fun a => by match a with | ⟨0, _⟩ => rfl | ⟨1, _⟩ => rfl | ⟨2, _⟩ => rfl

theorem ridx_v37 (q k : Fin 1024) : ridx_main_v37 (ix3 b s q) k = ix2 k q :=
  funext fun a => by match a with | ⟨0, _⟩ => rfl | ⟨1, _⟩ => rfl

/-- Stage 37 is the power 3 of the hidden row against cross matrix 2. -/
theorem v37_at (q : Fin 1024) :
    val_main_v37 (F := Ideal) x0 x1 x2 x4 (ix3 b s q)
      = crossAt (hrow x0 x1 x2 b s) (fun k r q => x4 (ix3 k r q)) 2 2 q := by
  rw [val_main_v37_apply]
  unfold crossAt
  refine Finset.sum_congr rfl fun k _ => ?_
  rw [lidx_v37, ridx_v37, v28_at, v36_at]

theorem lidx_v49 (q k : Fin 1024) : lidx_main_v49 (ix3 b s q) k = ix3 b s k :=
  funext fun a => by match a with | ⟨0, _⟩ => rfl | ⟨1, _⟩ => rfl | ⟨2, _⟩ => rfl

theorem ridx_v49 (q k : Fin 1024) : ridx_main_v49 (ix3 b s q) k = ix2 k q :=
  funext fun a => by match a with | ⟨0, _⟩ => rfl | ⟨1, _⟩ => rfl

/-- Stage 49 is the power 4 of the hidden row against cross matrix 3. -/
theorem v49_at (q : Fin 1024) :
    val_main_v49 (F := Ideal) x0 x1 x2 x4 (ix3 b s q)
      = crossAt (hrow x0 x1 x2 b s) (fun k r q => x4 (ix3 k r q)) 3 3 q := by
  rw [val_main_v49_apply]
  unfold crossAt
  refine Finset.sum_congr rfl fun k _ => ?_
  rw [lidx_v49, ridx_v49, v40_at, v48_at]

theorem lidx_v61 (q k : Fin 1024) : lidx_main_v61 (ix3 b s q) k = ix3 b s k :=
  funext fun a => by match a with | ⟨0, _⟩ => rfl | ⟨1, _⟩ => rfl | ⟨2, _⟩ => rfl

theorem ridx_v61 (q k : Fin 1024) : ridx_main_v61 (ix3 b s q) k = ix2 k q :=
  funext fun a => by match a with | ⟨0, _⟩ => rfl | ⟨1, _⟩ => rfl

/-- Stage 61 is the power 5 of the hidden row against cross matrix 4. -/
theorem v61_at (q : Fin 1024) :
    val_main_v61 (F := Ideal) x0 x1 x2 x4 (ix3 b s q)
      = crossAt (hrow x0 x1 x2 b s) (fun k r q => x4 (ix3 k r q)) 4 4 q := by
  rw [val_main_v61_apply]
  unfold crossAt
  refine Finset.sum_congr rfl fun k _ => ?_
  rw [lidx_v61, ridx_v61, v52_at, v60_at]

/-! ## The accumulator, one term after the other -/

/-- The coefficient table and the stack of cross matrices as functions of coordinates. -/
abbrev coT : Fin 6 → Fin 1024 → EReal := fun k r => x3 (ix2 k r)
abbrev crT : Fin 5 → Fin 1024 → Fin 1024 → EReal := fun k r q => x4 (ix3 k r q)

end

section
variable (h : Fin 1024 → EReal) (co : Fin 6 → Fin 1024 → EReal) (cr : Fin 5 → Fin 1024 → Fin 1024 → EReal)
  (q : Fin 1024)

/-- The accumulator after its first term, its first two terms, … in the order the loop adds them. -/
def acc1 : EReal := 0 + pwr h 0 q * co 0 q
def acc2 : EReal := acc1 h co q + crossAt h cr 0 0 q * h q
def acc3 : EReal := acc2 h co cr q + pwr h 1 q * co 1 q
def acc4 : EReal := acc3 h co cr q + crossAt h cr 1 1 q * h q
def acc5 : EReal := acc4 h co cr q + pwr h 2 q * co 2 q
def acc6 : EReal := acc5 h co cr q + crossAt h cr 2 2 q * h q
def acc7 : EReal := acc6 h co cr q + pwr h 3 q * co 3 q
def acc8 : EReal := acc7 h co cr q + crossAt h cr 3 3 q * h q
def acc9 : EReal := acc8 h co cr q + pwr h 4 q * co 4 q
def acc10 : EReal := acc9 h co cr q + crossAt h cr 4 4 q * h q
def acc11 : EReal := acc10 h co cr q + pwr h 5 q * co 5 q

/-- All eleven terms are the interleaved form of the specification. -/
theorem acc11_eq : acc11 h co cr q = accLoop h co cr q := rfl

end

section
variable (x0 : A0) (x1 : A1) (x2 : A2) (x3 : A3) (x4 : A4) (x5 : A5) (x6 : A6)
variable (b : Fin 4) (s : Fin 4096)

/-- Stage 10 is the accumulator after 1 term. -/
theorem v10_at (q : Fin 1024) :
    val_main_v10 (F := Ideal) x0 x1 x2 x3 (ix3 b s q) = acc1 (hrow x0 x1 x2 b s) (coT x3) q := by
  rw [val_main_v10_apply, val_main_v4_apply, val_main_cst_apply, val_main_v9_apply, v3_at, v8_at]
  simp only [Ideal.addf_def, Ideal.mulf_def, Ideal.ofBits_def, Ideal.ofBits_zero_f32]
  rfl

/-- Stage 15 is the accumulator after 2 terms. -/
theorem v15_at (q : Fin 1024) :
    val_main_v15 (F := Ideal) x0 x1 x2 x3 x4 (ix3 b s q) = acc2 (hrow x0 x1 x2 b s) (coT x3) (crT x4) q := by
  rw [val_main_v15_apply, v10_at, val_main_v14_apply, v13_at, v3_at]
  rfl

/-- Stage 22 is the accumulator after 3 terms. -/
theorem v22_at (q : Fin 1024) :
    val_main_v22 (F := Ideal) x0 x1 x2 x3 x4 (ix3 b s q) = acc3 (hrow x0 x1 x2 b s) (coT x3) (crT x4) q := by
  rw [val_main_v22_apply, v15_at, val_main_v21_apply, v16_at, v20_at]
  rfl

/-- Stage 27 is the accumulator after 4 terms. -/
theorem v27_at (q : Fin 1024) :
    val_main_v27 (F := Ideal) x0 x1 x2 x3 x4 (ix3 b s q) = acc4 (hrow x0 x1 x2 b s) (coT x3) (crT x4) q := by
  rw [val_main_v27_apply, v22_at, val_main_v26_apply, v25_at, v3_at]
  rfl

/-- Stage 34 is the accumulator after 5 terms. -/
theorem v34_at (q : Fin 1024) :
    val_main_v34 (F := Ideal) x0 x1 x2 x3 x4 (ix3 b s q) = acc5 (hrow x0 x1 x2 b s) (coT x3) (crT x4) q := by
  rw [val_main_v34_apply, v27_at, val_main_v33_apply, v28_at, v32_at]
  rfl

/-- Stage 39 is the accumulator after 6 terms. -/
theorem v39_at (q : Fin 1024) :
    val_main_v39 (F := Ideal) x0 x1 x2 x3 x4 (ix3 b s q) = acc6 (hrow x0 x1 x2 b s) (coT x3) (crT x4) q := by
  rw [val_main_v39_apply, v34_at, val_main_v38_apply, v37_at, v3_at]
  rfl

/-- Stage 46 is the accumulator after 7 terms. -/
theorem v46_at (q : Fin 1024) :
    val_main_v46 (F := Ideal) x0 x1 x2 x3 x4 (ix3 b s q) = acc7 (hrow x0 x1 x2 b s) (coT x3) (crT x4) q := by
  rw [val_main_v46_apply, v39_at, val_main_v45_apply, v40_at, v44_at]
  rfl

/-- Stage 51 is the accumulator after 8 terms. -/
theorem v51_at (q : Fin 1024) :
    val_main_v51 (F := Ideal) x0 x1 x2 x3 x4 (ix3 b s q) = acc8 (hrow x0 x1 x2 b s) (coT x3) (crT x4) q := by
  rw [val_main_v51_apply, v46_at, val_main_v50_apply, v49_at, v3_at]
  rfl

/-- Stage 58 is the accumulator after 9 terms. -/
theorem v58_at (q : Fin 1024) :
    val_main_v58 (F := Ideal) x0 x1 x2 x3 x4 (ix3 b s q) = acc9 (hrow x0 x1 x2 b s) (coT x3) (crT x4) q := by
  rw [val_main_v58_apply, v51_at, val_main_v57_apply, v52_at, v56_at]
  rfl

/-- Stage 63 is the accumulator after 10 terms. -/
theorem v63_at (q : Fin 1024) :
    val_main_v63 (F := Ideal) x0 x1 x2 x3 x4 (ix3 b s q) = acc10 (hrow x0 x1 x2 b s) (coT x3) (crT x4) q := by
  rw [val_main_v63_apply, v58_at, val_main_v62_apply, v61_at, v3_at]
  rfl

/-- Stage 70 is the accumulator after 11 terms. -/
theorem v70_at (q : Fin 1024) :
    val_main_v70 (F := Ideal) x0 x1 x2 x3 x4 (ix3 b s q) = acc11 (hrow x0 x1 x2 b s) (coT x3) (crT x4) q := by
  rw [val_main_v70_apply, v63_at, val_main_v69_apply, v64_at, v68_at]
  rfl

/-! ## The up-projection, its bias and the residual -/

theorem lidx_v72 (d : Fin 2048) (k : Fin 1024) : lidx_main_v72 (ix3 b s d) k = ix3 b s k :=
  funext fun a => by match a with | ⟨0, _⟩ => rfl | ⟨1, _⟩ => rfl | ⟨2, _⟩ => rfl

theorem ridx_v72 (d : Fin 2048) (k : Fin 1024) : ridx_main_v72 (ix3 b s d) k = ix2 k d :=
  funext fun a => by match a with | ⟨0, _⟩ => rfl | ⟨1, _⟩ => rfl

theorem idx_v74 (d : Fin 2048) : idx_main_v73 (idx_main_v74 (ix3 b s d)) = ix1 d :=
  funext fun a => by match a with | ⟨0, _⟩ => rfl

/-- Stage 72 is the accumulator against the up-projection. -/
theorem v72_at (d : Fin 2048) :
    val_main_v72 (F := Ideal) x0 x1 x2 x3 x4 x5 (ix3 b s d)
      = ∑ q : Fin 1024, accLoop (hrow x0 x1 x2 b s) (coT x3) (crT x4) q * x5 (ix2 q d) := by
  rw [val_main_v72_apply]
  refine Finset.sum_congr rfl fun k _ => ?_
  rw [lidx_v72, ridx_v72, v70_at, acc11_eq]

/-- The last stage is the specification's output entry. -/
theorem v76_at (d : Fin 2048) :
    val_main_v76 (F := Ideal) x0 x1 x2 x3 x4 x5 x6 (ix3 b s d)
      = entry accLoop (fun b s d => x0 (ix3 b s d)) (fun d r => x1 (ix2 d r)) (fun r => x2 (ix1 r))
          (coT x3) (crT x4) (fun q d => x5 (ix2 q d)) (fun d => x6 (ix1 d)) b s d := by
  rw [val_main_v76_apply, val_main_v75_apply, v72_at, val_main_v74_apply, val_main_v73_apply, idx_v74]
  rfl

end

/-- The reference program's result is the specification with the interleaved accumulator. -/
theorem ref_is_loop
    (x0 : (⟨S4x4096x2048, .f32⟩ : BufTy).Contents (Elt Ideal)) (x1 : (⟨S2048x1024, .f32⟩ : BufTy).Contents (Elt Ideal))
    (x2 : (⟨S1024, .f32⟩ : BufTy).Contents (Elt Ideal)) (x3 : (⟨S6x1024, .f32⟩ : BufTy).Contents (Elt Ideal))
    (x4 : (⟨S5x1024x1024, .f32⟩ : BufTy).Contents (Elt Ideal)) (x5 : (⟨S1024x2048, .f32⟩ : BufTy).Contents (Elt Ideal))
    (x6 : (⟨S2048, .f32⟩ : BufTy).Contents (Elt Ideal)) :
    val_main_v76 (F := Ideal) x0 x1 x2 x3 x4 x5 x6 = whole accLoop x0 x1 x2 x3 x4 x5 x6 := by
  funext i
  obtain ⟨b, s, d, rfl⟩ : ∃ b s d, i = ix3 b s d := ⟨i 0, i 1, i 2, eq_ix3 i⟩
  rw [v76_at]
  rfl

end Cert.RefSide

end
-- ==== Proof.RealEntries.lean ====
/-
  Extended reals that are real numbers. A sum or a product of reals is a real; on reals the
  extended-real operations are the real ones, so every ring identity of ℝ holds there. This is what
  lets a common factor be moved across a finite sum, which fails at the infinities.
-/
import Mathlib

namespace Cert.RealEntries

/-- The extended real `x` is (the image of) a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add
      (ih fun i hi => hf i (Finset.mem_insert_of_mem hi))

end Cert.RealEntries
-- ==== Proof.AccForms.lean ====
/-
  On real numbers the fused accumulator is the interleaved one.

  The interleaved form adds, left to right from zero, the six polynomial terms  hᵏ⁺¹·coₖ  and between them the five
  cross terms  (hⁱ⁺¹ crᵢ) q · h q.  The fused form adds the six polynomial terms first and then the five cross sums
  gathered into one sum and multiplied once by the common factor h q.  The two agree by
    0 + a = a,   re-association and reordering of a finite sum,   (s₀ + s₁ + s₂ + s₃ + s₄)·a = s₀·a + … + s₄·a.
  The last law holds for real numbers and fails when a sum of infinities of both signs is involved, so every entry
  is assumed real; sums and products of reals are real, so every named term below is the image of a real number and
  the identity is checked in ℝ.
-/
import proofs.«175452_j15994458211120_2_alg».proof.Proof.PolySpec
import proofs.«175452_j15994458211120_2_alg».proof.Proof.RealEntries

noncomputable section

open scoped BigOperators

namespace Cert.AccForms

open Cert.PolySpec Cert.RealEntries Idealize.ShloMosaic Idealize.ShloMosaic.ValueIdx

/-- The hidden row of real arrays is real. -/
theorem hid_real (xr : Fin 2048 → EReal) (dw : Fin 2048 → Fin 1024 → EReal) (db : Fin 1024 → EReal)
    (hx : ∀ d, IsReal (xr d)) (hdw : ∀ d r, IsReal (dw d r)) (hdb : ∀ r, IsReal (db r)) (r : Fin 1024) :
    IsReal (hid xr dw db r) := by
  unfold hid
  exact (IsReal.sum _ _ fun d _ => (hx d).mul (hdw d r)).add (hdb r)

/-- Every power of a real row is real. -/
theorem pwr_real (h : Fin 1024 → EReal) (hh : ∀ r, IsReal (h r)) (k : ℕ) (r : Fin 1024) : IsReal (pwr h k r) := by
  induction k generalizing r with
  | zero => exact hh r
  | succ k ih => exact (ih r).mul (hh r)

/-- A power of a real row against a real cross matrix is real. -/
theorem cross_real (h : Fin 1024 → EReal) (cr : Fin 5 → Fin 1024 → Fin 1024 → EReal)
    (hh : ∀ r, IsReal (h r)) (hcr : ∀ i r q, IsReal (cr i r q)) (i : Fin 5) (q : Fin 1024) :
    IsReal (∑ r : Fin 1024, pwr h i.val r * cr i r q) :=
  IsReal.sum _ _ fun r _ => (pwr_real h hh _ r).mul (hcr i r q)

/-- The identity in ℝ: six polynomial terms `t`, five cross sums `s`, the common factor `a`. -/
theorem real_identity (t0 t1 t2 t3 t4 t5 s0 s1 s2 s3 s4 a : ℝ) :
    (((((t0 + t1) + t2) + t3) + t4) + t5) + (s0 + s1 + s2 + s3 + s4) * a
      = (((((((((t0 + s0 * a) + t1) + s1 * a) + t2) + s2 * a) + t3) + s3 * a) + t4) + s4 * a) + t5 := by
  ring

/-- On real entries the fused accumulator equals the interleaved one. -/
theorem accFused_eq_accLoop (h : Fin 1024 → EReal) (co : Fin 6 → Fin 1024 → EReal)
    (cr : Fin 5 → Fin 1024 → Fin 1024 → EReal) (hh : ∀ r, IsReal (h r)) (hco : ∀ k r, IsReal (co k r))
    (hcr : ∀ i r q, IsReal (cr i r q)) (q : Fin 1024) : accFused h co cr q = accLoop h co cr q := by
  -- the five cross sums, the six polynomial terms and the common factor, each the image of a real number
  obtain ⟨s0, hs0⟩ := cross_real h cr hh hcr 0 q
  obtain ⟨s1, hs1⟩ := cross_real h cr hh hcr 1 q
  obtain ⟨s2, hs2⟩ := cross_real h cr hh hcr 2 q
  obtain ⟨s3, hs3⟩ := cross_real h cr hh hcr 3 q
  obtain ⟨s4, hs4⟩ := cross_real h cr hh hcr 4 q
  obtain ⟨t0, ht0⟩ := (pwr_real h hh 0 q).mul (hco 0 q)
  obtain ⟨t1, ht1⟩ := (pwr_real h hh 1 q).mul (hco 1 q)
  obtain ⟨t2, ht2⟩ := (pwr_real h hh 2 q).mul (hco 2 q)
  obtain ⟨t3, ht3⟩ := (pwr_real h hh 3 q).mul (hco 3 q)
  obtain ⟨t4, ht4⟩ := (pwr_real h hh 4 q).mul (hco 4 q)
  obtain ⟨t5, ht5⟩ := (pwr_real h hh 5 q).mul (hco 5 q)
  obtain ⟨a, ha⟩ := hh q
  -- the same five sums as the interleaved form names them
  have e0 : crossAt h cr 0 0 q = (s0 : EReal) := hs0
  have e1 : crossAt h cr 1 1 q = (s1 : EReal) := hs1
  have e2 : crossAt h cr 2 2 q = (s2 : EReal) := hs2
  have e3 : crossAt h cr 3 3 q = (s3 : EReal) := hs3
  have e4 : crossAt h cr 4 4 q = (s4 : EReal) := hs4
  have ef : (∑ i : Fin 5, ∑ r : Fin 1024, pwr h i.val r * cr i r q) = ((s0 + s1 + s2 + s3 + s4 : ℝ) : EReal) := by
    rw [Fin.sum_univ_five, hs0, hs1, hs2, hs3, hs4]
    simp only [EReal.coe_add]
  unfold accFused accLoop
  rw [ef, e0, e1, e2, e3, e4, ht0, ht1, ht2, ht3, ht4, ht5, ha, zero_add]
  simp only [← EReal.coe_mul, ← EReal.coe_add]
  exact congrArg _ (real_identity t0 t1 t2 t3 t4 t5 s0 s1 s2 s3 s4 a)

/-- On real arrays the whole result is the same for the two forms of the accumulator; the up-projection and its
    bias may be anything, since the two sides differ only inside the accumulator. -/
theorem whole_fused_eq_loop
    (X : (⟨3, ![4, 4096, 2048]⟩ : Shape).Idx → EReal) (DW : (⟨2, ![2048, 1024]⟩ : Shape).Idx → EReal)
    (DB : (⟨1, ![1024]⟩ : Shape).Idx → EReal) (CO : (⟨2, ![6, 1024]⟩ : Shape).Idx → EReal)
    (CR : (⟨3, ![5, 1024, 1024]⟩ : Shape).Idx → EReal) (UW : (⟨2, ![1024, 2048]⟩ : Shape).Idx → EReal)
    (UB : (⟨1, ![2048]⟩ : Shape).Idx → EReal)
    (hX : ∀ i, IsReal (X i)) (hDW : ∀ i, IsReal (DW i)) (hDB : ∀ i, IsReal (DB i)) (hCO : ∀ i, IsReal (CO i))
    (hCR : ∀ i, IsReal (CR i)) :
    whole accFused X DW DB CO CR UW UB = whole accLoop X DW DB CO CR UW UB := by
  funext i
  have hacc : accFused (hid (fun d => X (ix3 (i 0) (i 1) d)) (fun d r => DW (ix2 d r)) (fun r => DB (ix1 r)))
        (fun k r => CO (ix2 k r)) (fun k r q => CR (ix3 k r q))
      = accLoop (hid (fun d => X (ix3 (i 0) (i 1) d)) (fun d r => DW (ix2 d r)) (fun r => DB (ix1 r)))
        (fun k r => CO (ix2 k r)) (fun k r q => CR (ix3 k r q)) :=
    funext fun q => accFused_eq_accLoop _ _ _
      (fun r => hid_real _ _ _ (fun d => hX _) (fun d r => hDW _) (fun r => hDB _) r)
      (fun k r => hCO _) (fun k r q => hCR _) q
  exact congrArg (fun acc => outRow acc (fun q d => UW (ix2 q d)) (fun d => UB (ix1 d))
    (fun d => X (ix3 (i 0) (i 1) d)) (i 2)) hacc

end Cert.AccForms

end
-- ==== Proof.LibFiniteInputs.lean ====
/-
  "Every entry is finite", read back at the ideal values.

  A precondition that an array holds finite numbers is printed as the reduction by "and", over every index and from the
  constant one, of the comparison |x| < +∞ of the array's entries against the broadcast f32 word of plus infinity. When
  that reduction (into the rank-zero shape) is one, every entry of the array is a real number:
    * a reduction by "and" into a single result that is one met a one at every index;
    * the comparison "ordered less than" is one only when the strict inequality holds;
    * an extended real whose absolute value max x (-x) lies strictly below the top element is neither infinity.
  Stated for an array of any shape; the f32 word 0x7F800000 is plus infinity.
-/
import Idealize.ShloMosaic.Lib.ReduceAll
import Idealize.ShloMosaic.Lib.ValueIdx
import Idealize.ShloMosaic.PureOps.Ideal

noncomputable section

namespace Cert.LibFiniteInputs

open Idealize.ShloMosaic

/-- The word 0x7F800000 (sign clear, exponent all ones, fraction zero) is plus infinity. -/
theorem ofBits_posInf : Ideal.ofBits .f32 0x7F800000#32 = (⊤ : EReal) := by
  simp [Ideal.ofBits, Ideal.ieee]

/-- An extended real whose absolute value compares strictly below plus infinity is a real number. -/
theorem real_of_abs_lt (x : EReal)
    (h : Ideal.cmp .olt (max x (-x)) (Ideal.ofBits .f32 0x7F800000#32) = 1#1) : ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-- The rank-zero shape has one index. -/
instance : Subsingleton (⟨0, ![]⟩ : Shape).Idx := ⟨fun a b => funext fun d => d.elim0⟩

/-- One array's test: if the reduction by "and" of the comparisons |x| < +∞ is one, every entry is real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi
        (cmpf .olt (Host.absf a) (broadcastInDim s ![] hb (constant (F := Ideal) ⟨0, ![]⟩ .f32 0x7F800000#32)))
        (constantI ⟨0, ![]⟩ 1 1#1) hr hu ValueIdx.ix0 = 1#1) (i : s.Idx) :
    ∃ r : ℝ, a i = (r : EReal) :=
  real_of_abs_lt (a i) (Host.reduce_andi_all _ _ hr hu ValueIdx.ix0 h i)

end Cert.LibFiniteInputs

end
-- ==== Proof.FiniteArgs.lean ====
/-
  The precondition "every argument is finite", read back: every entry of every argument is a real number.

  The precondition is the "and" of seven tests, one per argument array; each test is the reduction by "and", over all
  indices of the array, of the comparison |x| < +∞ of its entries. A one-bit "and" is one exactly when both operands
  are one, so when the precondition is one each of the seven tests is one; and a test that is one says that every
  entry of its array lies strictly between the two infinities, that is, is the image of a real number.
-/
import proofs.«175452_j15994458211120_2_alg».proof.Pre_finite_inputs
import proofs.«175452_j15994458211120_2_alg».proof.Proof.LibFiniteInputs
import proofs.«175452_j15994458211120_2_alg».proof.Proof.RealEntries

noncomputable section

namespace Cert.FiniteArgs

open Cert.Pre_finite_inputs Cert.RealEntries Idealize.ShloMosaic

/-- If the precondition holds of seven arrays, every entry of each of them is a real number. -/
theorem real_of_pre [Cert.Pre_finite_inputs.Facts]
    (a0 : FVec Ideal S4x4096x2048 .f32) (a1 : FVec Ideal S2048x1024 .f32) (a2 : FVec Ideal S1024 .f32)
    (a3 : FVec Ideal S6x1024 .f32) (a4 : FVec Ideal S5x1024x1024 .f32) (a5 : FVec Ideal S1024x2048 .f32)
    (a6 : FVec Ideal S2048 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧
      (∀ i, IsReal (a4 i)) ∧ (∀ i, IsReal (a5 i)) ∧ (∀ i, IsReal (a6 i)) := by
  -- the precondition at its one index: a left-nested "and" of the seven tests
  have h0 := congrFun h ValueIdx.ix0
  dsimp only [fn, fn_part1, andi] at h0
  obtain ⟨h05, t6⟩ := IntOp.andi_eq_one.1 h0
  obtain ⟨h04, t5⟩ := IntOp.andi_eq_one.1 h05
  obtain ⟨h03, t4⟩ := IntOp.andi_eq_one.1 h04
  obtain ⟨h02, t3⟩ := IntOp.andi_eq_one.1 h03
  obtain ⟨h01, t2⟩ := IntOp.andi_eq_one.1 h02
  obtain ⟨t0, t1⟩ := IntOp.andi_eq_one.1 h01
  exact ⟨fun i => Cert.LibFiniteInputs.real_of_all a0 _ _ _ t0 i,
    fun i => Cert.LibFiniteInputs.real_of_all a1 _ _ _ t1 i,
    fun i => Cert.LibFiniteInputs.real_of_all a2 _ _ _ t2 i,
    fun i => Cert.LibFiniteInputs.real_of_all a3 _ _ _ t3 i,
    fun i => Cert.LibFiniteInputs.real_of_all a4 _ _ _ t4 i,
    fun i => Cert.LibFiniteInputs.real_of_all a5 _ _ _ t5 i,
    fun i => Cert.LibFiniteInputs.real_of_all a6 _ _ _ t6 i⟩

end Cert.FiniteArgs

end
-- ==== Proof.lean ====
/-
  The five claims of this certificate, assembled.

  Both programs compute, per input row, a hidden row h = x·W_down + b_down, its powers h, h², …, h⁶ entry by entry, an
  accumulator built from the powers times per-feature coefficients and from the first five powers multiplied by five
  cross matrices and then by h again, and the output acc·W_up + b_up + x. The reference adds the eleven terms of the
  accumulator one after the other; the kernel adds the six polynomial terms, gathers the five matrix products into ONE
  product over the concatenated powers, and multiplies by h once. The two agree by the distributive law, which holds
  for real numbers and fails at the infinities: so the value claim uses the precondition that every input is finite.
  Nothing else separates the two: changes of float format are the identity on the extended reals, a matrix product into
  a zero accumulator is the plain sum, and reshapes only rename indices.

  * The three frames: the kernels' are generated whole; the reference's is its generated run with the result dropped.
  * The idealization rewrote nothing, so the kernel's idealized text is its own text read on the extended reals.
  * The value claim: the kernel's run names its result as the fused form of the arguments (KernelRun), the reference's
    generated run names its result as the interleaved form (RefSide), the precondition makes every entry of the
    arguments a real number (FiniteArgs), and on real numbers the two forms are equal (AccForms).
-/
import proofs.«175452_j15994458211120_2_alg».proof.Defs
import proofs.«175452_j15994458211120_2_alg».proof.Proof.Gen.Kernel
import proofs.«175452_j15994458211120_2_alg».proof.Proof.Gen.Kernel.Skeleton
import proofs.«175452_j15994458211120_2_alg».proof.Proof.Gen.Kernel.Launch
import proofs.«175452_j15994458211120_2_alg».proof.Proof.Gen.Kernel.Points
import proofs.«175452_j15994458211120_2_alg».proof.Proof.Gen.Kernel.Frame
import proofs.«175452_j15994458211120_2_alg».proof.Proof.Gen.KernelIdeal
import proofs.«175452_j15994458211120_2_alg».proof.Proof.Gen.KernelIdeal.Skeleton
import proofs.«175452_j15994458211120_2_alg».proof.Proof.Gen.KernelIdeal.Launch
import proofs.«175452_j15994458211120_2_alg».proof.Proof.Gen.KernelIdeal.Points
import proofs.«175452_j15994458211120_2_alg».proof.Proof.Gen.KernelIdeal.Frame
import proofs.«175452_j15994458211120_2_alg».proof.Proof.Gen.ReferenceIdeal
import proofs.«175452_j15994458211120_2_alg».proof.Proof.Gen.ReferenceIdeal.Run
import proofs.«175452_j15994458211120_2_alg».proof.Proof.Gen.ReferenceIdeal.Read
import proofs.«175452_j15994458211120_2_alg».proof.Proof.Gen.Pre_finite_inputs
import proofs.«175452_j15994458211120_2_alg».proof.Proof.KernelRun
import proofs.«175452_j15994458211120_2_alg».proof.Proof.RefSide
import proofs.«175452_j15994458211120_2_alg».proof.Proof.AccForms
import proofs.«175452_j15994458211120_2_alg».proof.Proof.FiniteArgs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- On arrays of real numbers the reference's result (the interleaved form) is the fused form. -/
theorem forms_agree (a0 : (⟨Cert.ReferenceIdeal.S4x4096x2048, .f32⟩ : BufTy).Contents (Elt Ideal)) (a1 : (⟨Cert.ReferenceIdeal.S2048x1024, .f32⟩ : BufTy).Contents (Elt Ideal)) (a2 : (⟨Cert.ReferenceIdeal.S1024, .f32⟩ : BufTy).Contents (Elt Ideal)) (a3 : (⟨Cert.ReferenceIdeal.S6x1024, .f32⟩ : BufTy).Contents (Elt Ideal)) (a4 : (⟨Cert.ReferenceIdeal.S5x1024x1024, .f32⟩ : BufTy).Contents (Elt Ideal)) (a5 : (⟨Cert.ReferenceIdeal.S1024x2048, .f32⟩ : BufTy).Contents (Elt Ideal)) (a6 : (⟨Cert.ReferenceIdeal.S2048, .f32⟩ : BufTy).Contents (Elt Ideal))
    (h0 : ∀ i, Cert.RealEntries.IsReal (a0 i)) (h1 : ∀ i, Cert.RealEntries.IsReal (a1 i)) (h2 : ∀ i, Cert.RealEntries.IsReal (a2 i))
    (h3 : ∀ i, Cert.RealEntries.IsReal (a3 i)) (h4 : ∀ i, Cert.RealEntries.IsReal (a4 i)) :
    Cert.ReferenceIdeal.Read.val_main_v76 (F := Ideal) a0 a1 a2 a3 a4 a5 a6
      = Cert.PolySpec.whole Cert.PolySpec.accFused a0 a1 a2 a3 a4 a5 a6 :=
  (Cert.RefSide.ref_is_loop a0 a1 a2 a3 a4 a5 a6).trans
    (Cert.AccForms.whole_fused_eq_loop a0 a1 a2 a3 a4 a5 a6 h0 h1 h2 h3 h4).symm

/-- From memories agreeing on the arguments both programs end, the kernel at the fused form of the accumulator and the
    reference at the interleaved one; the arguments are finite, so every entry is a real number and the forms agree. -/
theorem algebraic : Cert.algebraic_KernelIdeal_ReferenceIdeal := by
  intro m ρ m' ρ' hpre hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, (hagree c).1, (hagree c).2.1, (hagree c).2.2.1,
    (hagree c).2.2.2.1, (hagree c).2.2.2.2.1, (hagree c).2.2.2.2.2.1, (hagree c).2.2.2.2.2.2]
  obtain ⟨h0, h1, h2, h3, h4, -, -⟩ := Cert.FiniteArgs.real_of_pre _ _ _ _ _ _ _ (hpre c)
  exact forms_agree _ _ _ _ _ _ _ h0 h1 h2 h3 h4

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
